-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S128x40 .f32) (main_arg9 : FVec F S40 .f32) (main_v33 : IVec S_ 1) : IVec S_ 1 :=
  let main_v34 : FVec F S128x40 .f32 := Host.absf main_arg8
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x40 .f32) (main_arg9 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x256 .f32) (main_arg1 : IVec S2x1600000 32) (main_arg2 : FVec F S256x128 .f32) (main_arg3 : FVec F S128 .f32) (main_arg4 : FVec F S128x128 .f32) (main_arg5 : FVec F S128 .f32) (main_arg6 : FVec F S128x128 .f32) (main_arg7 : FVec F S128 .f32) (main_arg8 : FVec F S128x40 .f32) (main_arg9 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S100000x128 : Shape := ⟨2, ![100000, 128]⟩
abbrev S4000x256 : Shape := ⟨2, ![4000, 256]⟩
abbrev S4000x128 : Shape := ⟨2, ![4000, 128]⟩
abbrev S1700000x128 : Shape := ⟨2, ![1700000, 128]⟩
abbrev S1x40 : Shape := ⟨2, ![1, 40]⟩
abbrev S100000x40 : Shape := ⟨2, ![100000, 40]⟩
abbrev S4000x40 : Shape := ⟨2, ![4000, 40]⟩
abbrev S4000 : Shape := ⟨1, ![4000]⟩
abbrev S4000x1 : Shape := ⟨2, ![4000, 1]⟩

abbrev nBuf : Space → Nat
  | .hbm => 95
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x40, .f32⟩
  | .hbm, ⟨9, _⟩ => ⟨S40, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S1x128, .f32⟩
  | .hbm, ⟨51, _⟩ => ⟨S256x128, .bf16⟩
  | .hbm, ⟨52, _⟩ => ⟨S128x128, .bf16⟩
  | .hbm, ⟨53, _⟩ => ⟨S100000x128, .bf16⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x128, .bf16⟩
  | .hbm, ⟨63, _⟩ => ⟨S1700000x128, .f32⟩
  | .hbm, ⟨64, _⟩ => ⟨S1700000x1, .f32⟩
  | .hbm, ⟨65, _⟩ => ⟨S1700000x128, .f32⟩
  | .hbm, ⟨66, _⟩ => ⟨S1700000x128, .f32⟩
  | .hbm, ⟨67, _⟩ => ⟨S_, .f32⟩
  | .hbm, ⟨68, _⟩ => ⟨S100000x128, .f32⟩
  | .hbm, ⟨69, _⟩ => ⟨S1700000x1, .i32⟩
  | .hbm, ⟨70, _⟩ => ⟨S100000x128, .f32⟩
  | .hbm, ⟨71, _⟩ => ⟨S128x128, .bf16⟩
  | .hbm, ⟨72, _⟩ => ⟨S1x128, .f32⟩
  | .hbm, ⟨73, _⟩ => ⟨S100000x128, .bf16⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x128, .bf16⟩
  | .hbm, ⟨83, _⟩ => ⟨S1700000x128, .f32⟩
  | .hbm, ⟨84, _⟩ => ⟨S1700000x1, .f32⟩
  | .hbm, ⟨85, _⟩ => ⟨S1700000x128, .f32⟩
  | .hbm, ⟨86, _⟩ => ⟨S1700000x128, .f32⟩
  | .hbm, ⟨87, _⟩ => ⟨S_, .f32⟩
  | .hbm, ⟨88, _⟩ => ⟨S100000x128, .f32⟩
  | .hbm, ⟨89, _⟩ => ⟨S1700000x1, .i32⟩
  | .hbm, ⟨90, _⟩ => ⟨S100000x128, .f32⟩
  | .hbm, ⟨91, _⟩ => ⟨S128x40, .bf16⟩
  | .hbm, ⟨92, _⟩ => ⟨S1x128, .f32⟩
  | .hbm, ⟨93, _⟩ => ⟨S1x40, .f32⟩
  | .hbm, ⟨94, _⟩ => ⟨S100000x40, .f32⟩
  | .local _ .vmem, ⟨0, _⟩ => ⟨S4000x256, .f32⟩
  | .local _ .vmem, ⟨1, _⟩ => ⟨S4000x256, .f32⟩
  | .local _ .vmem, ⟨2, _⟩ => ⟨S256x128, .bf16⟩
  | .local _ .vmem, ⟨3, _⟩ => ⟨S1x128, .f32⟩
  | .local _ .vmem, ⟨4, _⟩ => ⟨S128x128, .bf16⟩
  | .local _ .vmem, ⟨5, _⟩ => ⟨S4000x128, .bf16⟩
  | .local _ .vmem, ⟨6, _⟩ => ⟨S4000x128, .bf16⟩
  | .local _ .vmem, ⟨7, _⟩ => ⟨S4000x128, .f32⟩
  | .local _ .vmem, ⟨8, _⟩ => ⟨S4000x128, .f32⟩
  | .local _ .vmem, ⟨9, _⟩ => ⟨S1x128, .f32⟩
  | .local _ .vmem, ⟨10, _⟩ => ⟨S128x128, .bf16⟩
  | .local _ .vmem, ⟨11, _⟩ => ⟨S4000x128, .bf16⟩
  | .local _ .vmem, ⟨12, _⟩ => ⟨S4000x128, .bf16⟩
  | .local _ .vmem, ⟨13, _⟩ => ⟨S4000x128, .f32⟩
  | .local _ .vmem, ⟨14, _⟩ => ⟨S4000x128, .f32⟩
  | .local _ .vmem, ⟨15, _⟩ => ⟨S1x128, .f32⟩
  | .local _ .vmem, ⟨16, _⟩ => ⟨S128x40, .bf16⟩
  | .local _ .vmem, ⟨17, _⟩ => ⟨S1x40, .f32⟩
  | .local _ .vmem, ⟨18, _⟩ => ⟨S4000x40, .f32⟩
  | .local _ .vmem, ⟨19, _⟩ => ⟨S4000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_9 : Ref sig .tc := ⟨.hbm, 74, rfl⟩
abbrev main_v51 : Ref sig .tc := ⟨.hbm, 75, rfl⟩
abbrev main_v52 : Ref sig .tc := ⟨.hbm, 76, rfl⟩
abbrev main_c_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_11 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem4_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x40 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x40 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S128_S1x128 : S128.ShapeCasts S1x128
  bitsLt_bf16_f32 : FTy.bits .bf16 < FTy.bits .f32
  inb_S4000x256_S4000x256_0_0 : ∀ a, (![0, 0] : Fin 2 → Nat) a + S4000x256.size a ≤ S4000x256.size a
  h_S4000x256 : 0 < S4000x256.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S4000x128_S4000x128 : S4000x128.ShapeCasts S4000x128
  shapeCasts_S40_S1x40 : S40.ShapeCasts S1x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  reduces_S4000x40_S4000 : S4000x40.Reduces [1] S4000
  shapeCasts_S4000_S4000x1 : S4000.ShapeCasts S4000x1
  broadcasts_S4000x1_S4000x40 : S4000x1.Broadcasts S4000x40
  inb_S4000x40_S4000x40_0_0 : ∀ a, (![0, 0] : Fin 2 → Nat) a + S4000x40.size a ≤ S4000x40.size a
  h_S4000x40 : 0 < S4000x40.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x256_S256x128_S4000x128_1_0_0_1_n_n_wf : DotDims.WF S4000x256 S256x128 S4000x128 [1] [0] [0] [1] [] []
  dot_S4000x128_S128x128_S4000x128_1_0_0_1_n_n_wf : DotDims.WF S4000x128 S128x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x40_S4000x40_1_0_0_1_n_n_wf : DotDims.WF S4000x128 S128x40 S4000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .bf16 = 32 ∨ (Rect.block (s := S100000x128) S4000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .bf16 = 32 ∨ (Rect.block (s := S100000x128) S4000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x40.size a ≤ S128x40.size a
  hwx2_2 : ∀ i : grid2.Coords, EltTy.bits .bf16 = 32 ∨ (Rect.block (s := S128x40) S128x40.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x40.size a ≤ S1x40.size a
  hwx2_3 : ∀ i : grid2.Coords, EltTy.bits .f32 = 32 ∨ (Rect.block (s := S1x40) S1x40.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x40.size a ≤ S100000x40.size a
  hwx2_4 : ∀ i : grid2.Coords, EltTy.bits .f32 = 32 ∨ (Rect.block (s := S100000x40) S4000x40.size (cc2_transform_4 i) (hinb2_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x40_S4000x40_1_0_0_1_n_n : DotDims S4000x128 S128x40 S4000x40 where
  lhsContracting := [1]
  rhsContracting := [0]
  lhsNonContracting := [0]
  rhsNonContracting := [1]
  lhsBatch := []
  rhsBatch := []
  wf := dot_S4000x128_S128x40_S4000x40_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v47) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v64) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S128x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S1x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v68) S4000x40.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1x128 : Shape := ⟨2, ![1, 128]⟩
abbrev S1700000x128 : Shape := ⟨2, ![1700000, 128]⟩
abbrev S100000x40 : Shape := ⟨2, ![100000, 40]⟩
abbrev S1x40 : Shape := ⟨2, ![1, 40]⟩
abbrev S100000x1 : Shape := ⟨2, ![100000, 1]⟩

abbrev nBuf : Space → Nat
  | .hbm => 119
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x40, .f32⟩
  | .hbm, ⟨9, _⟩ => ⟨S40, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S100000x128, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x128, .f32⟩
  | .hbm, ⟨64, _⟩ => ⟨S1700000x1, .f32⟩
  | .hbm, ⟨65, _⟩ => ⟨S1700000x128, .f32⟩
  | .hbm, ⟨66, _⟩ => ⟨S1700000x128, .f32⟩
  | .hbm, ⟨67, _⟩ => ⟨S_, .f32⟩
  | .hbm, ⟨68, _⟩ => ⟨S100000x128, .f32⟩
  | .hbm, ⟨69, _⟩ => ⟨S1700000x1, .i32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S_, .i32⟩
  | .hbm, ⟨79, _⟩ => ⟨S1700000, .i32⟩
  | .hbm, ⟨80, _⟩ => ⟨S1700000, .i1⟩
  | .hbm, ⟨81, _⟩ => ⟨S_, .i32⟩
  | .hbm, ⟨82, _⟩ => ⟨S1700000, .i32⟩
  | .hbm, ⟨83, _⟩ => ⟨S1700000, .i32⟩
  | .hbm, ⟨84, _⟩ => ⟨S1700000, .i32⟩
  | .hbm, ⟨85, _⟩ => ⟨S1700000x1, .i32⟩
  | .hbm, ⟨86, _⟩ => ⟨S1700000x128, .f32⟩
  | .hbm, ⟨87, _⟩ => ⟨S1700000x1, .f32⟩
  | .hbm, ⟨88, _⟩ => ⟨S1700000x128, .f32⟩
  | .hbm, ⟨89, _⟩ => ⟨S1700000x128, .f32⟩
  | .hbm, ⟨90, _⟩ => ⟨S_, .f32⟩
  | .hbm, ⟨91, _⟩ => ⟨S100000x128, .f32⟩
  | .hbm, ⟨92, _⟩ => ⟨S1700000x1, .i32⟩
  | .hbm, ⟨93, _⟩ => ⟨S100000x128, .f32⟩
  | .hbm, ⟨94, _⟩ => ⟨S1x128, .f32⟩
  | .hbm, ⟨95, _⟩ => ⟨S100000x128, .f32⟩
  | .hbm, ⟨96, _⟩ => ⟨S100000x128, .f32⟩
  | .hbm, ⟨97, _⟩ => ⟨S_, .f32⟩
  | .hbm, ⟨98, _⟩ => ⟨S100000x128, .f32⟩
  | .hbm, ⟨99, _⟩ => ⟨S100000x128, .f32⟩
  | .hbm, ⟨100, _⟩ => ⟨S100000x40, .f32⟩
  | .hbm, ⟨101, _⟩ => ⟨S1x40, .f32⟩
  | .hbm, ⟨102, _⟩ => ⟨S100000x40, .f32⟩
  | .hbm, ⟨103, _⟩ => ⟨S100000x40, .f32⟩
  | .hbm, ⟨104, _⟩ => ⟨S_, .f32⟩
  | .hbm, ⟨105, _⟩ => ⟨S100000, .f32⟩
  | .hbm, ⟨106, _⟩ => ⟨S_, .f32⟩
  | .hbm, ⟨107, _⟩ => ⟨S100000, .f32⟩
  | .hbm, ⟨108, _⟩ => ⟨S100000, .f32⟩
  | .hbm, ⟨109, _⟩ => ⟨S100000x1, .f32⟩
  | .hbm, ⟨110, _⟩ => ⟨S100000x40, .f32⟩
  | .hbm, ⟨111, _⟩ => ⟨S100000x40, .f32⟩
  | .hbm, ⟨112, _⟩ => ⟨S100000x40, .f32⟩
  | .hbm, ⟨113, _⟩ => ⟨S_, .f32⟩
  | .hbm, ⟨114, _⟩ => ⟨S100000, .f32⟩
  | .hbm, ⟨115, _⟩ => ⟨S100000x1, .f32⟩
  | .hbm, ⟨116, _⟩ => ⟨S100000x1, .f32⟩
  | .hbm, ⟨117, _⟩ => ⟨S100000x40, .f32⟩
  | .hbm, ⟨118, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_6 : Ref sig .tc := ⟨.hbm, 55, rfl⟩
abbrev main_v35 : Ref sig .tc := ⟨.hbm, 56, rfl⟩
abbrev main_v36 : Ref sig .tc := ⟨.hbm, 57, rfl⟩
abbrev main_c_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call1_cst : Ref sig .tc := ⟨.hbm, 74, rfl⟩
abbrev main_call1_v0 : Ref sig .tc := ⟨.hbm, 75, rfl⟩
abbrev main_v51 : Ref sig .tc := ⟨.hbm, 76, rfl⟩
abbrev main_v52 : Ref sig .tc := ⟨.hbm, 77, rfl⟩
abbrev main_c_9 : Ref sig .tc := ⟨.hbm, 78, rfl⟩
abbrev main_v53 : Ref sig .tc := ⟨.hbm, 79, rfl⟩
abbrev main_v54 : Ref sig .tc := ⟨.hbm, 80, rfl⟩
abbrev main_c_10 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_11 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_call2_cst : Ref sig .tc := ⟨.hbm, 97, rfl⟩
abbrev main_call2_v0 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_call3_cst : Ref sig .tc := ⟨.hbm, 104, rfl⟩
abbrev main_call3_v0 : Ref sig .tc := ⟨.hbm, 105, rfl⟩
abbrev main_call3_cst_0 : Ref sig .tc := ⟨.hbm, 106, rfl⟩
abbrev main_call3_v1 : Ref sig .tc := ⟨.hbm, 107, rfl⟩
abbrev main_call3_v2 : Ref sig .tc := ⟨.hbm, 108, rfl⟩
abbrev main_call3_v3 : Ref sig .tc := ⟨.hbm, 109, rfl⟩
abbrev main_call3_v4 : Ref sig .tc := ⟨.hbm, 110, rfl⟩
abbrev main_call3_v5 : Ref sig .tc := ⟨.hbm, 111, rfl⟩
abbrev main_call3_v6 : Ref sig .tc := ⟨.hbm, 112, rfl⟩
abbrev main_call3_cst_1 : Ref sig .tc := ⟨.hbm, 113, rfl⟩
abbrev main_call3_v7 : Ref sig .tc := ⟨.hbm, 114, rfl⟩
abbrev main_call3_v8 : Ref sig .tc := ⟨.hbm, 115, rfl⟩
abbrev main_call3_v9 : Ref sig .tc := ⟨.hbm, 116, rfl⟩
abbrev main_call3_v10 : Ref sig .tc := ⟨.hbm, 117, rfl⟩
abbrev main_v74 : Ref sig .tc := ⟨.hbm, 118, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.RunAll.lean ====
/-
  The kernel program's run with every buffer named.

  The program is eight segments: three stretches of host operations, the first row-tiled call, a stretch, the second call, a
  stretch, the third call. The contents of every buffer at each boundary are a fold through the program from the launch
  memory: a host stretch applies its operations, a call leaves its arrays at what its write-backs left and every other
  buffer as it found it. Every weakly fair execution terminates, and every unscoped buffer of every core ends at the last
  boundary's contents (`run_all`); in particular the result array and the ten arguments (`run_named`).
-/
import proofs.«135698_j83657372991833_2_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every unscoped buffer of every core ends
    at the contents the fold gives at the last boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The run with the result array and the arguments named: the result at the last boundary's contents, each argument as
    launched. -/
theorem run_named : θ_run defs (onTc (τ := τ) (main (F := F))) ⟨m, fun _ => 0, ρ⟩ (fun r => ∀ c : Dev nD,
      r.2.mem ((c.tc : Thread nD τ).loc main_v68) = W8 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨h c _ (mem_uc main_v68 (by decide)),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c)⟩)
    (run_all m ρ)

end Cert.KernelIdeal.RunAll

end
-- ==== Proof.LibRowLayers.lean ====
/-
  The dense layers of a two-convolution graph network, entry by entry over the extended reals.

  Every layer here maps an array of `n` rows to an array of `n` rows, and entry `(r, q)` of the result reads row `r` of
  the input only. So a layer of the whole array, restricted to a block of rows, is the same layer of that block: that is
  why a kernel that walks the rows block by block computes the whole-array layer. A bias is carried as a one-row array.
    * `affineLinear x A a B`   : `(x · A + a) · B`                              (two products, no nonlinearity between);
    * `reluLinear y b W`       : `max (y + b) 0 · W`;
    * `reluAffine y b W c`     : `max (y + b) 0 · W + c`;
    * `logSoftmaxRows z`       : `(z − max_j z) − log Σ_j exp (z − max_j z)`, the maximum and the sum along each row.
-/
import Idealize.ShloMosaic.PureOps.Ideal.Laws
import Idealize.ShloMosaic.Lib.ValueIdx

noncomputable section

open scoped BigOperators

namespace Gcn.Layers

open Idealize.ShloMosaic Idealize.ShloMosaic.ValueIdx

variable {n K H C : ℕ}

/-- `(x · A + a) · B` at entry `(r, q)`: `Σ_k (Σ_l x[r,l] · A[l,k] + a[0,k]) · B[k,q]`. -/
def affineLinear (x : (⟨2, ![n, K]⟩ : Shape).Idx → EReal) (A : (⟨2, ![K, H]⟩ : Shape).Idx → EReal)
    (a : (⟨2, ![1, H]⟩ : Shape).Idx → EReal) (B : (⟨2, ![H, C]⟩ : Shape).Idx → EReal) :
    (⟨2, ![n, C]⟩ : Shape).Idx → EReal :=
  fun i => ∑ k : Fin H, (∑ l : Fin K, x (ix2 (i 0) l) * A (ix2 l k) + a (ix2 (0 : Fin 1) k)) * B (ix2 k (i 1))

/-- `max (y + b) 0 · W` at entry `(r, q)`: `Σ_k max (y[r,k] + b[0,k]) 0 · W[k,q]`. -/
def reluLinear (y : (⟨2, ![n, H]⟩ : Shape).Idx → EReal) (b : (⟨2, ![1, H]⟩ : Shape).Idx → EReal)
    (W : (⟨2, ![H, C]⟩ : Shape).Idx → EReal) : (⟨2, ![n, C]⟩ : Shape).Idx → EReal :=
  fun i => ∑ k : Fin H, max (y (ix2 (i 0) k) + b (ix2 (0 : Fin 1) k)) 0 * W (ix2 k (i 1))

/-- `max (y + b) 0 · W + c`. -/
def reluAffine (y : (⟨2, ![n, H]⟩ : Shape).Idx → EReal) (b : (⟨2, ![1, H]⟩ : Shape).Idx → EReal)
    (W : (⟨2, ![H, C]⟩ : Shape).Idx → EReal) (c : (⟨2, ![1, C]⟩ : Shape).Idx → EReal) :
    (⟨2, ![n, C]⟩ : Shape).Idx → EReal :=
  fun i => reluLinear y b W i + c (ix2 (0 : Fin 1) (i 1))

/-- The largest entry of row `r`. -/
def rowMax (z : (⟨2, ![n, C]⟩ : Shape).Idx → EReal) (r : Fin n) : EReal :=
  (Finset.univ : Finset (Fin C)).sup fun j => z (ix2 r j)

/-- The logarithm of a row's softmax: each entry less the row's maximum, less the logarithm of the row's sum of the
    exponentials of those differences. -/
def logSoftmaxRows (z : (⟨2, ![n, C]⟩ : Shape).Idx → EReal) : (⟨2, ![n, C]⟩ : Shape).Idx → EReal :=
  fun i => (z i - rowMax z (i 0)) - Ideal.log (∑ j : Fin C, Ideal.exp (z (ix2 (i 0) j) - rowMax z (i 0)))

/-! ## A layer reads one row -/

theorem affineLinear_apply (x : (⟨2, ![n, K]⟩ : Shape).Idx → EReal) (A : (⟨2, ![K, H]⟩ : Shape).Idx → EReal)
    (a : (⟨2, ![1, H]⟩ : Shape).Idx → EReal) (B : (⟨2, ![H, C]⟩ : Shape).Idx → EReal) (r : Fin n) (q : Fin C) :
    affineLinear x A a B (ix2 r q)
      = ∑ k : Fin H, (∑ l : Fin K, x (ix2 r l) * A (ix2 l k) + a (ix2 (0 : Fin 1) k)) * B (ix2 k q) := rfl

theorem reluLinear_apply (y : (⟨2, ![n, H]⟩ : Shape).Idx → EReal) (b : (⟨2, ![1, H]⟩ : Shape).Idx → EReal)
    (W : (⟨2, ![H, C]⟩ : Shape).Idx → EReal) (r : Fin n) (q : Fin C) :
    reluLinear y b W (ix2 r q) = ∑ k : Fin H, max (y (ix2 r k) + b (ix2 (0 : Fin 1) k)) 0 * W (ix2 k q) := rfl

theorem reluAffine_apply (y : (⟨2, ![n, H]⟩ : Shape).Idx → EReal) (b : (⟨2, ![1, H]⟩ : Shape).Idx → EReal)
    (W : (⟨2, ![H, C]⟩ : Shape).Idx → EReal) (c : (⟨2, ![1, C]⟩ : Shape).Idx → EReal) (r : Fin n) (q : Fin C) :
    reluAffine y b W c (ix2 r q)
      = (∑ k : Fin H, max (y (ix2 r k) + b (ix2 (0 : Fin 1) k)) 0 * W (ix2 k q)) + c (ix2 (0 : Fin 1) q) := rfl

theorem logSoftmaxRows_apply (z : (⟨2, ![n, C]⟩ : Shape).Idx → EReal) (r : Fin n) (q : Fin C) :
    logSoftmaxRows z (ix2 r q)
      = (z (ix2 r q) - rowMax z r) - Ideal.log (∑ j : Fin C, Ideal.exp (z (ix2 r j) - rowMax z r)) := rfl

/-! ## Rows of a block are rows of the array

  If block `X` of `m` rows holds rows `o, o + 1, …` of the array `x` (`hX`), then a layer of the block at `(p, q)` is
  the layer of the array at `(o + p, q)`. -/

section Blocks

variable {m : ℕ}

theorem affineLinear_block (x : (⟨2, ![n, K]⟩ : Shape).Idx → EReal) (X : (⟨2, ![m, K]⟩ : Shape).Idx → EReal)
    (A : (⟨2, ![K, H]⟩ : Shape).Idx → EReal) (a : (⟨2, ![1, H]⟩ : Shape).Idx → EReal)
    (B : (⟨2, ![H, C]⟩ : Shape).Idx → EReal) (p : Fin m) (r : Fin n) (hX : ∀ l : Fin K, X (ix2 p l) = x (ix2 r l))
    (q : Fin C) : affineLinear X A a B (ix2 p q) = affineLinear x A a B (ix2 r q) := by
  rw [affineLinear_apply, affineLinear_apply]
  refine Finset.sum_congr rfl fun k _ => ?_
  refine congrArg (fun s => (s + a (ix2 (0 : Fin 1) k)) * B (ix2 k q)) ?_
  exact Finset.sum_congr rfl fun l _ => by rw [hX l]

theorem reluLinear_block (y : (⟨2, ![n, H]⟩ : Shape).Idx → EReal) (Y : (⟨2, ![m, H]⟩ : Shape).Idx → EReal)
    (b : (⟨2, ![1, H]⟩ : Shape).Idx → EReal) (W : (⟨2, ![H, C]⟩ : Shape).Idx → EReal) (p : Fin m) (r : Fin n)
    (hY : ∀ k : Fin H, Y (ix2 p k) = y (ix2 r k)) (q : Fin C) :
    reluLinear Y b W (ix2 p q) = reluLinear y b W (ix2 r q) := by
  rw [reluLinear_apply, reluLinear_apply]
  exact Finset.sum_congr rfl fun k _ => by rw [hY k]

theorem reluAffine_block (y : (⟨2, ![n, H]⟩ : Shape).Idx → EReal) (Y : (⟨2, ![m, H]⟩ : Shape).Idx → EReal)
    (b : (⟨2, ![1, H]⟩ : Shape).Idx → EReal) (W : (⟨2, ![H, C]⟩ : Shape).Idx → EReal)
    (c : (⟨2, ![1, C]⟩ : Shape).Idx → EReal) (p : Fin m) (r : Fin n)
    (hY : ∀ k : Fin H, Y (ix2 p k) = y (ix2 r k)) (q : Fin C) :
    reluAffine Y b W c (ix2 p q) = reluAffine y b W c (ix2 r q) :=
  congrArg (· + c (ix2 (0 : Fin 1) q)) (reluLinear_block y Y b W p r hY q)

theorem rowMax_block (z : (⟨2, ![n, C]⟩ : Shape).Idx → EReal) (Z : (⟨2, ![m, C]⟩ : Shape).Idx → EReal) (p : Fin m)
    (r : Fin n) (hZ : ∀ j : Fin C, Z (ix2 p j) = z (ix2 r j)) : rowMax Z p = rowMax z r := by
  unfold rowMax
  exact congrArg (fun f => (Finset.univ : Finset (Fin C)).sup f) (funext hZ)

theorem logSoftmaxRows_block (z : (⟨2, ![n, C]⟩ : Shape).Idx → EReal) (Z : (⟨2, ![m, C]⟩ : Shape).Idx → EReal)
    (p : Fin m) (r : Fin n) (hZ : ∀ j : Fin C, Z (ix2 p j) = z (ix2 r j)) (q : Fin C) :
    logSoftmaxRows Z (ix2 p q) = logSoftmaxRows z (ix2 r q) := by
  rw [logSoftmaxRows_apply, logSoftmaxRows_apply, rowMax_block z Z p r hZ, hZ q]
  refine congrArg (fun s => (z (ix2 r q) - rowMax z r) - Ideal.log s) ?_
  exact Finset.sum_congr rfl fun j _ => by rw [hZ j]

end Blocks

end Gcn.Layers

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.LibDotColsHost.lean ====
/-
  The host's plain matrix product read at one entry.

  For `x : M × K` and `y : K × N` the host's `dot_general` with dimension numbers "contract axis 1 of the left with axis 0 of
  the right, keep axis 0 of the left and axis 1 of the right" has no accumulator: over the extended reals its entry `(p, q)` is
  `∑ k, x[p, k] · y[k, q]`. The operand indices are those of the plain product (the companion module identifies them with the
  coordinate pairs `(p, k)` and `(k, q)`); only the operation differs.
-/
import proofs.«135698_j83657372991833_2_alg».proof.Proof.LibDotCols

noncomputable section

open scoped BigOperators

namespace Cert.Lib.DotColsHost

open Idealize.ShloMosaic Idealize.ShloMosaic.ValueIdx Cert.Lib.DotCols

variable {M K N : Nat}

/-- THE HOST'S PLAIN PRODUCT AT AN ENTRY. Over the extended reals, a `dot_general` with these dimension numbers (any record `D`
    that spells them: `hD`), whatever its precision and schedule, holds at `(p, q)` the sum `∑ k, x[p, k] · y[k, q]`. -/
theorem dotGeneral_cols_apply {φ₁ φ₂ : FTy} (D : DotDims ⟨2, ![M, K]⟩ ⟨2, ![K, N]⟩ ⟨2, ![M, N]⟩) (hD : D = DotDims.plain M K N)
    (prec : Option ContractPrecision) (sched : HostSchedule) (x : FVec Ideal ⟨2, ![M, K]⟩ φ₁) (y : FVec Ideal ⟨2, ![K, N]⟩ φ₂)
    (p : Fin M) (q : Fin N) :
    FloatOps.dotGeneral D prec sched x y (ix2 p q) = ∑ k : Fin K, x (ix2 p k) * y (ix2 k q) := by
  subst hD
  rw [Ideal.dotGeneral_apply, ← Equiv.sum_comp (contrEquiv1 (DotDims.plain M K N) K rfl rfl).symm]
  refine Finset.sum_congr rfl fun k _ => ?_
  rw [lhsIdx_cols, rhsIdx_cols]

end Cert.Lib.DotColsHost

end
-- ==== Proof.LibSegSup.lean ====
/-
  The supremum of an extended-real function of the natural numbers over a run of consecutive positions,
  `segSup f a n = sup { f (a + k) | k < n }` (the bottom element when the run is empty), and the one law a
  pooling argument needs of it: a run of `n + n'` positions is its first `n` positions followed by the next
  `n'`, so its supremum is the larger of the two parts' suprema. Only the order structure is used — the supremum
  of a finite family does not depend on how the family is cut or grouped, and holds at the infinities as anywhere
  else. Also: a left fold of `max` from the bottom element over a finite family is that family's supremum, and a
  supremum over `Fin n` is the supremum over the run of `n` positions.
-/
import Mathlib.Data.EReal.Basic
import Mathlib.Order.Interval.Finset.Nat

namespace SegSup

/-- The supremum of `f` over the `n` consecutive positions `a, a + 1, …, a + n - 1`. -/
noncomputable def segSup (f : ℕ → EReal) (a n : ℕ) : EReal := (Finset.range n).sup fun k => f (a + k)

theorem segSup_zero (f : ℕ → EReal) (a : ℕ) : segSup f a 0 = ⊥ := by
  unfold segSup; rw [Finset.range_zero, Finset.sup_empty]

theorem segSup_succ (f : ℕ → EReal) (a n : ℕ) : segSup f a (n + 1) = segSup f a n ⊔ f (a + n) := by
  unfold segSup; rw [Finset.range_add_one, Finset.sup_insert, sup_comm]

/-- A run of `n + n'` positions is a run of `n` followed by a run of `n'`. -/
theorem segSup_add (f : ℕ → EReal) (a n n' : ℕ) : segSup f a (n + n') = segSup f a n ⊔ segSup f (a + n) n' := by
  induction n' with
  | zero => rw [Nat.add_zero, segSup_zero, sup_bot_eq]
  | succ k ih => rw [← Nat.add_assoc, segSup_succ, ih, segSup_succ, sup_assoc, Nat.add_assoc]

/-- Two runs of equal length whose entries agree position by position have one supremum. -/
theorem segSup_congr {f g : ℕ → EReal} {a b n : ℕ} (h : ∀ k, k < n → f (a + k) = g (b + k)) : segSup f a n = segSup g b n := by
  unfold segSup; exact Finset.sup_congr rfl fun k hk => h k (Finset.mem_range.1 hk)

/-- The supremum over `Fin n` of the entries at `a + k` is the supremum over the run. -/
theorem sup_univ_fin (f : ℕ → EReal) (a n : ℕ) : (Finset.univ : Finset (Fin n)).sup (fun k => f (a + k.val)) = segSup f a n := by
  unfold segSup
  apply le_antisymm
  · exact Finset.sup_le fun k _ => Finset.le_sup (f := fun k => f (a + k)) (Finset.mem_range.2 k.isLt)
  · exact Finset.sup_le fun k hk =>
      Finset.le_sup (f := fun k : Fin n => f (a + k.val)) (Finset.mem_univ (⟨k, Finset.mem_range.1 hk⟩ : Fin n))

/-- Folding `max` from the bottom element over a finite family gives its supremum. -/
theorem fold_max_bot {ι : Type*} (s : Finset ι) (g : ι → EReal) : s.fold max ⊥ g = s.sup g := rfl

end SegSup
-- ==== Proof.LibHostMax.lean ====
/-
  A host reduction with a maximum body, started from the bottom element (the pattern of −∞), read at an index over the
  extended reals: reducing the LAST axis of an [n, w] array gives at row `r` the supremum of that row's `w` entries, and
  reducing the last axis of an [n, q, w] array gives at (r, i) the supremum of the `w` entries of group `i` of row `r`. The
  reduction is a fold of `max` over the reduced axis's coordinates in some order; a fold of `max` from the bottom element
  over a finite family is the family's supremum, whatever the order. The same for a lane reduction of an [n, w] vector
  (`multiReduction_rows`), and a vector cast to one column read back (`shapeCast_col_apply`). Also: two arrays of `q` columns and of one column set
  side by side, read at column `j`, give the first array's column `j` when `j < q` and the second's only column otherwise.
-/
import Idealize.ShloMosaic.Lib.ValueIdx
import Idealize.ShloMosaic.Lib.Pipeline.Value
import Idealize.ShloMosaic.PureOps.Ideal.Laws
import proofs.«135698_j83657372991833_2_alg».proof.Proof.LibSegSup

noncomputable section

namespace HostMax

open Idealize.ShloMosaic Idealize.ShloMosaic.ValueIdx SegSup

/-- The pattern of −∞ denotes the bottom element of the extended reals. -/
theorem ofBits_neg_inf : Ideal.ofBits .f32 0xFF800000#32 = (⊥ : EReal) := by
  simp [Ideal.ofBits, Ideal.ieee]

/-- Row `r` of an [n, w] array with coordinate `k` put back on the reduced (last) axis is (r, k). -/
theorem lift_rows {n w : ℕ} (h : (⟨2, ![n, w]⟩ : Shape).Reduces [1] (⟨1, ![n]⟩ : Shape)) (r : Fin n)
    (k : Fin ((⟨2, ![n, w]⟩ : Shape).size 1)) : h.lift (ix1 r) k = ix2 r (⟨k.val, k.isLt⟩ : Fin w) := by
  funext c; apply Fin.ext
  fin_cases c <;> rfl

/-- Group (r, i) of an [n, q, w] array with coordinate `k` put back on the reduced (last) axis is (r, i, k). -/
theorem lift_groups {n q w : ℕ} (h : (⟨3, ![n, q, w]⟩ : Shape).Reduces [2] (⟨2, ![n, q]⟩ : Shape)) (r : Fin n) (i : Fin q)
    (k : Fin ((⟨3, ![n, q, w]⟩ : Shape).size 2)) : h.lift (ix2 r i) k = ix3 r i (⟨k.val, k.isLt⟩ : Fin w) := by
  funext c; apply Fin.ext
  fin_cases c <;> rfl

/-- From −∞ the host's maximum over the last axis of an [n, w] array, at row `r`, is the supremum of the row. -/
theorem reduce_rows {n w : ℕ} (v : FVec Ideal ⟨2, ![n, w]⟩ .f32) (init : (⟨0, ![]⟩ : Shape).Idx → Ideal .f32)
    (hinit : ∀ i, init i = (⊥ : EReal))
    (h' : (⟨2, ![n, w]⟩ : Shape).ReducesTo [1] (⟨1, ![n]⟩ : Shape)) (h : (⟨2, ![n, w]⟩ : Shape).Reduces [1] (⟨1, ![n]⟩ : Shape))
    (hu : 0 < (⟨0, ![]⟩ : Shape).numel) (r : Fin n) :
    Host.reduce FloatOps.maximumf v init h' hu (ix1 r) = (Finset.univ : Finset (Fin w)).sup fun k => v (ix2 r k) := by
  rw [Host.reduce_eq_fold_single FloatOps.maximumf v init h' h hu, hinit]
  have hf : (v ∘ h.lift (ix1 r)) = fun k : Fin w => v (ix2 r k) := funext fun k => congrArg v (lift_rows h r k)
  exact congrArg (fun f => Finset.fold max (⊥ : EReal) f (Finset.univ : Finset (Fin w))) hf

/-- From −∞ the host's maximum over the last axis of an [n, q, w] array, at (r, i), is the supremum of that group. -/
theorem reduce_groups {n q w : ℕ} (v : FVec Ideal ⟨3, ![n, q, w]⟩ .f32) (init : (⟨0, ![]⟩ : Shape).Idx → Ideal .f32)
    (hinit : ∀ i, init i = (⊥ : EReal))
    (h' : (⟨3, ![n, q, w]⟩ : Shape).ReducesTo [2] (⟨2, ![n, q]⟩ : Shape))
    (h : (⟨3, ![n, q, w]⟩ : Shape).Reduces [2] (⟨2, ![n, q]⟩ : Shape))
    (hu : 0 < (⟨0, ![]⟩ : Shape).numel) (r : Fin n) (i : Fin q) :
    Host.reduce FloatOps.maximumf v init h' hu (ix2 r i) = (Finset.univ : Finset (Fin w)).sup fun k => v (ix3 r i k) := by
  rw [Host.reduce_eq_fold_single FloatOps.maximumf v init h' h hu, hinit]
  have hf : (v ∘ h.lift (ix2 r i)) = fun k : Fin w => v (ix3 r i k) := funext fun k => congrArg v (lift_groups h r i k)
  exact congrArg (fun f => Finset.fold max (⊥ : EReal) f (Finset.univ : Finset (Fin w))) hf

/-- From −∞ a lane reduction with a maximum body over the last axis of an [n, w] vector, at row `r`, is the supremum of
    the row: the kernel-side reading of the same fold. -/
theorem multiReduction_rows {n w : ℕ} (P : FVec Ideal ⟨2, ![n, w]⟩ .f32)
    (h : (⟨2, ![n, w]⟩ : Shape).Reduces [1] (⟨1, ![n]⟩ : Shape)) (hφ : FKind.Formats .f32)
    (hacc : (0xFF800000#32 : BitVec FTy.f32.bits) = FKind.maximumf.neutral .f32 hφ) (r : Fin n) :
    multiReduction (F := Ideal) .maximumf [1] (⟨1, ![n]⟩ : Shape) P 0xFF800000#32 h hφ hacc (ix1 r)
      = (Finset.univ : Finset (Fin w)).sup fun k => P (ix2 r k) := by
  refine (Ideal.multiReduction_maximumf_single (φ := .f32) P 0xFF800000#32 h hφ hacc (ix1 r)).trans ?_
  have hf : (P ∘ h.lift (ix1 r)) = fun k : Fin w => P (ix2 r k) := funext fun k => congrArg P (lift_rows h r k)
  have hb : FloatOps.ofBits (F := Ideal) .f32 0xFF800000#32 = (⊥ : EReal) := ofBits_neg_inf
  rw [hb]
  exact congrArg (fun f => Finset.fold max (⊥ : EReal) f (Finset.univ : Finset (Fin w))) hf

/-- A vector of `n` entries cast to one column, read at (r, 0), is entry `r`. -/
theorem shapeCast_col_apply {α : Type} {n : ℕ} (v : (⟨1, ![n]⟩ : Shape).Idx → α)
    (h : (⟨1, ![n]⟩ : Shape).ShapeCasts (⟨2, ![n, 1]⟩ : Shape)) (y : (⟨2, ![n, 1]⟩ : Shape).Idx) (r : Fin n)
    (hy : (y 0).val = r.val) : shapeCast (⟨2, ![n, 1]⟩ : Shape) v h y = v (ix1 r) := by
  refine shapeCast_apply v h y (ix1 r) ?_
  rw [Shape.rowMajor_val_one, Shape.rowMajor_val_two]
  have h1 : (y 1).val < 1 := (y 1).isLt
  show r.val = (y 0).val * 1 + (y 1).val
  omega

/-- An array of `q` columns and an array of one column set side by side: column `j` of the join is the first array's
    column `j` when `j < q`, and otherwise (`j = q`) the second array's only column. -/
theorem join_cols {α : Type} {n q : ℕ} (A : (⟨2, ![n, q]⟩ : Shape).Idx → α) (B : (⟨2, ![n, 1]⟩ : Shape).Idx → α)
    (h : Shape.Concatenates [(⟨2, ![n, q]⟩ : Shape), (⟨2, ![n, 1]⟩ : Shape)] (⟨2, ![n, q + 1]⟩ : Shape) (1 : Fin 2))
    (r : Fin n) (j : Fin (q + 1)) :
    concatenate (⟨2, ![n, q + 1]⟩ : Shape) (1 : Fin 2) [⟨(⟨2, ![n, q]⟩ : Shape), A⟩, ⟨(⟨2, ![n, 1]⟩ : Shape), B⟩] h (ix2 r j)
      = if hj : j.val < q then A (ix2 r ⟨j.val, hj⟩) else B (ix2 r (0 : Fin 1)) := by
  split
  · rename_i hj
    exact concatenate_pair_apply_left (1 : Fin 2) A B h (ix2 r j) rfl (ix2 r ⟨j.val, hj⟩) (fun b => by fin_cases b <;> rfl)
  · rename_i hj
    refine concatenate_pair_apply_right (1 : Fin 2) A B h (ix2 r j) rfl rfl (ix2 r (0 : Fin 1)) (fun b hb => ?_) ?_
    · fin_cases b
      · rfl
      · exact absurd rfl hb
    · show 0 + q = j.val
      have := j.isLt; omega

end HostMax

end
-- ==== Proof.LibLaneRows.lean ====
/-
  Two readings of an [n, w] vector over the extended reals, row by row.

  A lane reduction with an addition body over the last axis, from the neutral accumulator, holds at row `r` the plain sum of that
  row's `w` entries: the reduction sums the entries whose index drops to `r`, and those are exactly (r, 0), …, (r, w − 1).
  A one-column array [n, 1] broadcast to [n, w] holds at (r, t) the column's entry of row `r`, whatever `t`.
-/
import Idealize.ShloMosaic.Lib.ValueIdx
import Idealize.ShloMosaic.Lib.Pipeline.Value
import Idealize.ShloMosaic.PureOps.Ideal.Laws
import proofs.«135698_j83657372991833_2_alg».proof.Proof.LibHostMax

noncomputable section

open scoped BigOperators

namespace LaneRows

open Idealize.ShloMosaic Idealize.ShloMosaic.ValueIdx

/-- From the neutral accumulator, a lane sum over the last axis of an [n, w] vector, at row `r`, is the sum of the row. -/
theorem multiReduction_add_rows {n w : ℕ} (P : FVec Ideal ⟨2, ![n, w]⟩ .f32) (acc : BitVec FTy.f32.bits)
    (h : (⟨2, ![n, w]⟩ : Shape).Reduces [1] (⟨1, ![n]⟩ : Shape)) (hφ : FKind.Formats .f32)
    (hacc : acc = FKind.add.neutral .f32 hφ) (r : Fin n) :
    multiReduction (F := Ideal) .add [1] (⟨1, ![n]⟩ : Shape) P acc h hφ hacc (ix1 r) = ∑ k : Fin w, P (ix2 r k) := by
  refine (Ideal.multiReduction_add_single (φ := .f32) P acc h hφ hacc (ix1 r)).trans ?_
  have hf : (P ∘ h.lift (ix1 r)) = fun k : Fin w => P (ix2 r k) :=
    funext fun k => congrArg P (HostMax.lift_rows h r k)
  exact congrArg (fun f => ∑ k : Fin w, f k) hf

/-- One column broadcast across `w` columns: entry (r, t) is the column's entry of row `r`. -/
theorem broadcastTo_col_apply {α : Type} {n w : ℕ} (v : (⟨2, ![n, 1]⟩ : Shape).Idx → α)
    (h : (⟨2, ![n, 1]⟩ : Shape).Broadcasts ⟨2, ![n, w]⟩) (r : Fin n) (t : Fin w) :
    broadcastTo ⟨2, ![n, w]⟩ v h (ix2 r t) = v (ix2 r (0 : Fin 1)) := by
  refine broadcastTo_apply v h (ix2 r t) (ix2 r (0 : Fin 1)) fun ax => ?_
  match ax with
  | ⟨0, _⟩ =>
    show r.val = if n = 1 then 0 else r.val
    split
    · have := r.isLt; omega
    · rfl
  | ⟨1, _⟩ =>
    show (0 : ℕ) = if (1 : ℕ) = 1 then 0 else t.val
    rw [if_pos rfl]

end LaneRows

end
-- ==== Proof.LibRowLayerOps.lean ====
/-
  Each dense layer of the network (LibRowLayers.lean) as the two programs spell it, for any number of rows.

  A kernel body spells a layer with vector operations on a block — `tpu.matmul` into the zero accumulator, a one-row bias
  broadcast over the rows, a maximum with the splat of the float zero, lane reductions that keep their axis —, rounding to a
  narrower float format on the way into each product; the host spells it with `dot_general`, `broadcast_in_dim`, `reduce`.
  Over the extended reals a change of float format is the identity, a product into the zero accumulator is the plain sum of
  products, and both spellings of a layer are the entry-by-entry function of LibRowLayers.lean. Nothing here needs the entries to
  be finite: no term is moved across a sum.
-/
import proofs.«135698_j83657372991833_2_alg».proof.Proof.LibRowLayers
import proofs.«135698_j83657372991833_2_alg».proof.Proof.LibDotCols
import proofs.«135698_j83657372991833_2_alg».proof.Proof.LibDotColsHost
import proofs.«135698_j83657372991833_2_alg».proof.Proof.LibHostMax
import proofs.«135698_j83657372991833_2_alg».proof.Proof.LibLaneRows
import Idealize.ShloMosaic.Lib.ValueLayout
import Idealize.ShloMosaic.Lib.Pipeline.Value

noncomputable section

open scoped BigOperators

namespace Gcn.LayerOps

open Idealize.ShloMosaic Idealize.ShloMosaic.ValueIdx Gcn.Layers Cert.Lib.DotCols Cert.Lib.DotColsHost

variable {n K H C : ℕ}

/-! ## Small readings -/

/-- The float zero word denotes zero. -/
theorem ofBits_zero : FloatOps.ofBits (F := Ideal) .f32 0x00000000#32 = (0 : EReal) := Ideal.ofBits_zero_f32

/-- The word of −∞ denotes the bottom element. -/
theorem ofBits_neg_inf : FloatOps.ofBits (F := Ideal) .f32 0xFF800000#32 = (⊥ : EReal) := HostMax.ofBits_neg_inf

/-- A vector of `H` entries as a one-row array. -/
def row (a : (⟨1, ![H]⟩ : Shape).Idx → EReal) : (⟨2, ![1, H]⟩ : Shape).Idx → EReal := fun i => a (ix1 (i 1))

/-- Reshaping a vector to one row is `row`. -/
theorem shapeCast_row (a : (⟨1, ![H]⟩ : Shape).Idx → EReal) (h : (⟨1, ![H]⟩ : Shape).ShapeCasts ⟨2, ![1, H]⟩) :
    shapeCast ⟨2, ![1, H]⟩ a h = row a := by
  funext i
  obtain ⟨u, k, rfl⟩ : ∃ (u : Fin 1) (k : Fin H), i = ix2 u k := ⟨i 0, i 1, eq_ix2 i⟩
  exact shapeCast_a_1a_apply a h u k

/-- The host's bias: a vector set as one row (`dims = [1]`), the row repeated over `n` rows (`dims = [0, 1]`); at
    `(p, k)` it is the vector's entry `k`. -/
theorem bias_rows_apply (a : (⟨1, ![H]⟩ : Shape).Idx → EReal)
    (h1 : (⟨1, ![H]⟩ : Shape).BroadcastsInDim ⟨2, ![1, H]⟩ ![1])
    (h2 : (⟨2, ![1, H]⟩ : Shape).BroadcastsInDim ⟨2, ![n, H]⟩ ![0, 1]) (p : Fin n) (k : Fin H) :
    broadcastInDim ⟨2, ![n, H]⟩ ![0, 1] h2 (broadcastInDim ⟨2, ![1, H]⟩ ![1] h1 a) (ix2 p k) = row a (ix2 (0 : Fin 1) k) := by
  refine (broadcastInDim_apply _ h2 _ (ix2 p k) (ix2 (0 : Fin 1) k) fun ax => ?_).trans ?_
  · match ax with
    | ⟨0, _⟩ => show (0 : ℕ) = if (1 : ℕ) = 1 then 0 else p.val; rw [if_pos rfl]
    | ⟨1, _⟩ =>
      show k.val = if H = 1 then 0 else k.val
      split
      · have := k.isLt; omega
      · rfl
  · refine broadcastInDim_apply _ h1 a (ix2 (0 : Fin 1) k) (ix1 k) fun ax => ?_
    match ax with
    | ⟨0, _⟩ =>
      show k.val = if H = 1 then 0 else k.val
      split
      · have := k.isLt; omega
      · rfl

/-- The host's splat of the float zero over an array. -/
theorem zeros_apply (s : Shape) (h : (⟨0, ![]⟩ : Shape).BroadcastsInDim s ![]) (i : s.Idx) :
    broadcastInDim s ![] h (constant (F := Ideal) ⟨0, ![]⟩ .f32 0x00000000#32) i = (0 : EReal) :=
  (broadcastInDim_apply _ h _ i ix0 fun ax => ax.elim0).trans ofBits_zero

/-! ## `(x · A + a) · B` -/

/-- The kernel's spelling on a block: round, product, bias row over the rows, round, product, round. -/
theorem kernel_affineLinear (D1 : DotDims ⟨2, ![n, K]⟩ ⟨2, ![K, H]⟩ ⟨2, ![n, H]⟩) (hD1 : D1 = DotDims.plain n K H)
    (D2 : DotDims ⟨2, ![n, H]⟩ ⟨2, ![H, C]⟩ ⟨2, ![n, C]⟩) (hD2 : D2 = DotDims.plain n H C)
    (hlt : FTy.bits .bf16 < FTy.bits .f32) (hb : (⟨2, ![1, H]⟩ : Shape).Broadcasts ⟨2, ![n, H]⟩)
    (x : FVec Ideal ⟨2, ![n, K]⟩ .f32) (A : FVec Ideal ⟨2, ![K, H]⟩ .bf16) (a : FVec Ideal ⟨2, ![1, H]⟩ .f32)
    (B : FVec Ideal ⟨2, ![H, C]⟩ .bf16) :
    truncf .bf16 (matmul D2 none
        (truncf .bf16 (addf (matmul D1 none (truncf .bf16 x hlt) A (constant ⟨2, ![n, H]⟩ .f32 0x00000000#32))
          (broadcastTo ⟨2, ![n, H]⟩ a hb)) hlt)
        B (constant ⟨2, ![n, C]⟩ .f32 0x00000000#32)) hlt
      = affineLinear x A a B := by
  funext j
  obtain ⟨p, q, rfl⟩ : ∃ (p : Fin n) (q : Fin C), j = ix2 p q := ⟨j 0, j 1, eq_ix2 j⟩
  rw [affineLinear_apply]
  refine (matmul_cols_apply D2 hD2 none _ B p q).trans ?_
  refine Finset.sum_congr rfl fun k _ => congrArg (· * B (ix2 k q)) ?_
  exact congrArg₂ (· + ·) (matmul_cols_apply D1 hD1 none _ A p k) (broadcastTo_1b_ab_apply a hb p k)

/-- The host's spelling on the whole array: product, bias, product. -/
theorem host_affineLinear (D1 : DotDims ⟨2, ![n, K]⟩ ⟨2, ![K, H]⟩ ⟨2, ![n, H]⟩) (hD1 : D1 = DotDims.plain n K H)
    (D2 : DotDims ⟨2, ![n, H]⟩ ⟨2, ![H, C]⟩ ⟨2, ![n, C]⟩) (hD2 : D2 = DotDims.plain n H C)
    (h1 : (⟨1, ![H]⟩ : Shape).BroadcastsInDim ⟨2, ![1, H]⟩ ![1])
    (h2 : (⟨2, ![1, H]⟩ : Shape).BroadcastsInDim ⟨2, ![n, H]⟩ ![0, 1])
    (x : FVec Ideal ⟨2, ![n, K]⟩ .f32) (A : FVec Ideal ⟨2, ![K, H]⟩ .f32) (a : FVec Ideal ⟨1, ![H]⟩ .f32)
    (B : FVec Ideal ⟨2, ![H, C]⟩ .f32) :
    Host.dotGeneral D2 none
        (addf (Host.dotGeneral D1 none x A)
          (broadcastInDim ⟨2, ![n, H]⟩ ![0, 1] h2 (broadcastInDim ⟨2, ![1, H]⟩ ![1] h1 a))) B
      = affineLinear x A (row a) B := by
  funext j
  obtain ⟨p, q, rfl⟩ : ∃ (p : Fin n) (q : Fin C), j = ix2 p q := ⟨j 0, j 1, eq_ix2 j⟩
  rw [affineLinear_apply]
  refine (dotGeneral_cols_apply D2 hD2 none .single _ B p q).trans ?_
  refine Finset.sum_congr rfl fun k _ => congrArg (· * B (ix2 k q)) ?_
  exact congrArg₂ (· + ·) (dotGeneral_cols_apply D1 hD1 none .single x A p k) (bias_rows_apply a h1 h2 p k)

/-! ## `max (y + b) 0 · W` and `max (y + b) 0 · W + c` -/

/-- The kernel's spelling on a block: bias row, maximum with the splat of the float zero, round, product, round. -/
theorem kernel_reluLinear (D : DotDims ⟨2, ![n, H]⟩ ⟨2, ![H, C]⟩ ⟨2, ![n, C]⟩) (hD : D = DotDims.plain n H C)
    (hlt : FTy.bits .bf16 < FTy.bits .f32) (hb : (⟨2, ![1, H]⟩ : Shape).Broadcasts ⟨2, ![n, H]⟩)
    (y : FVec Ideal ⟨2, ![n, H]⟩ .f32) (b : FVec Ideal ⟨2, ![1, H]⟩ .f32) (W : FVec Ideal ⟨2, ![H, C]⟩ .bf16) :
    truncf .bf16 (matmul D none
        (truncf .bf16 (maximumf (addf y (broadcastTo ⟨2, ![n, H]⟩ b hb))
          (broadcast ⟨2, ![n, H]⟩ (FloatOps.ofBits (F := Ideal) .f32 0x00000000#32))) hlt)
        W (constant ⟨2, ![n, C]⟩ .f32 0x00000000#32)) hlt
      = reluLinear y b W := by
  funext j
  obtain ⟨p, q, rfl⟩ : ∃ (p : Fin n) (q : Fin C), j = ix2 p q := ⟨j 0, j 1, eq_ix2 j⟩
  rw [reluLinear_apply]
  refine (matmul_cols_apply D hD none _ W p q).trans ?_
  refine Finset.sum_congr rfl fun k _ => congrArg (· * W (ix2 k q)) ?_
  show max (y (ix2 p k) + broadcastTo ⟨2, ![n, H]⟩ b hb (ix2 p k)) (FloatOps.ofBits (F := Ideal) .f32 0x00000000#32) = _
  rw [broadcastTo_1b_ab_apply b hb p k, ofBits_zero]

/-- The kernel's spelling with the output bias: the same, then the output's bias row over the rows. -/
theorem kernel_reluAffine (D : DotDims ⟨2, ![n, H]⟩ ⟨2, ![H, C]⟩ ⟨2, ![n, C]⟩) (hD : D = DotDims.plain n H C)
    (hlt : FTy.bits .bf16 < FTy.bits .f32) (hb : (⟨2, ![1, H]⟩ : Shape).Broadcasts ⟨2, ![n, H]⟩)
    (hc : (⟨2, ![1, C]⟩ : Shape).Broadcasts ⟨2, ![n, C]⟩)
    (y : FVec Ideal ⟨2, ![n, H]⟩ .f32) (b : FVec Ideal ⟨2, ![1, H]⟩ .f32) (W : FVec Ideal ⟨2, ![H, C]⟩ .bf16)
    (c : FVec Ideal ⟨2, ![1, C]⟩ .f32) :
    addf (matmul D none
        (truncf .bf16 (maximumf (addf y (broadcastTo ⟨2, ![n, H]⟩ b hb))
          (broadcast ⟨2, ![n, H]⟩ (FloatOps.ofBits (F := Ideal) .f32 0x00000000#32))) hlt)
        W (constant ⟨2, ![n, C]⟩ .f32 0x00000000#32)) (broadcastTo ⟨2, ![n, C]⟩ c hc)
      = reluAffine y b W c := by
  funext j
  obtain ⟨p, q, rfl⟩ : ∃ (p : Fin n) (q : Fin C), j = ix2 p q := ⟨j 0, j 1, eq_ix2 j⟩
  rw [reluAffine_apply]
  refine congrArg₂ (· + ·) ?_ (broadcastTo_1b_ab_apply c hc p q)
  exact congrFun (kernel_reluLinear D hD hlt hb y b W) (ix2 p q)

/-- The host's spelling: bias, maximum with a splat of the float zero, product. -/
theorem host_reluLinear (D : DotDims ⟨2, ![n, H]⟩ ⟨2, ![H, C]⟩ ⟨2, ![n, C]⟩) (hD : D = DotDims.plain n H C)
    (h1 : (⟨1, ![H]⟩ : Shape).BroadcastsInDim ⟨2, ![1, H]⟩ ![1])
    (h2 : (⟨2, ![1, H]⟩ : Shape).BroadcastsInDim ⟨2, ![n, H]⟩ ![0, 1])
    (h0 : (⟨0, ![]⟩ : Shape).BroadcastsInDim ⟨2, ![n, H]⟩ ![])
    (y : FVec Ideal ⟨2, ![n, H]⟩ .f32) (b : FVec Ideal ⟨1, ![H]⟩ .f32) (W : FVec Ideal ⟨2, ![H, C]⟩ .f32) :
    Host.dotGeneral D none
        (maximumf (addf y (broadcastInDim ⟨2, ![n, H]⟩ ![0, 1] h2 (broadcastInDim ⟨2, ![1, H]⟩ ![1] h1 b)))
          (broadcastInDim ⟨2, ![n, H]⟩ ![] h0 (constant (F := Ideal) ⟨0, ![]⟩ .f32 0x00000000#32))) W
      = reluLinear y (row b) W := by
  funext j
  obtain ⟨p, q, rfl⟩ : ∃ (p : Fin n) (q : Fin C), j = ix2 p q := ⟨j 0, j 1, eq_ix2 j⟩
  rw [reluLinear_apply]
  refine (dotGeneral_cols_apply D hD none .single _ W p q).trans ?_
  refine Finset.sum_congr rfl fun k _ => congrArg (· * W (ix2 k q)) ?_
  show max (y (ix2 p k) + broadcastInDim ⟨2, ![n, H]⟩ ![0, 1] h2 (broadcastInDim ⟨2, ![1, H]⟩ ![1] h1 b) (ix2 p k))
      (broadcastInDim ⟨2, ![n, H]⟩ ![] h0 (constant (F := Ideal) ⟨0, ![]⟩ .f32 0x00000000#32) (ix2 p k)) = _
  rw [bias_rows_apply b h1 h2 p k, zeros_apply]

/-- The host's spelling with the output bias. -/
theorem host_reluAffine (D : DotDims ⟨2, ![n, H]⟩ ⟨2, ![H, C]⟩ ⟨2, ![n, C]⟩) (hD : D = DotDims.plain n H C)
    (h1 : (⟨1, ![H]⟩ : Shape).BroadcastsInDim ⟨2, ![1, H]⟩ ![1])
    (h2 : (⟨2, ![1, H]⟩ : Shape).BroadcastsInDim ⟨2, ![n, H]⟩ ![0, 1])
    (h0 : (⟨0, ![]⟩ : Shape).BroadcastsInDim ⟨2, ![n, H]⟩ ![])
    (g1 : (⟨1, ![C]⟩ : Shape).BroadcastsInDim ⟨2, ![1, C]⟩ ![1])
    (g2 : (⟨2, ![1, C]⟩ : Shape).BroadcastsInDim ⟨2, ![n, C]⟩ ![0, 1])
    (y : FVec Ideal ⟨2, ![n, H]⟩ .f32) (b : FVec Ideal ⟨1, ![H]⟩ .f32) (W : FVec Ideal ⟨2, ![H, C]⟩ .f32)
    (c : FVec Ideal ⟨1, ![C]⟩ .f32) :
    addf (Host.dotGeneral D none
        (maximumf (addf y (broadcastInDim ⟨2, ![n, H]⟩ ![0, 1] h2 (broadcastInDim ⟨2, ![1, H]⟩ ![1] h1 b)))
          (broadcastInDim ⟨2, ![n, H]⟩ ![] h0 (constant (F := Ideal) ⟨0, ![]⟩ .f32 0x00000000#32))) W)
        (broadcastInDim ⟨2, ![n, C]⟩ ![0, 1] g2 (broadcastInDim ⟨2, ![1, C]⟩ ![1] g1 c))
      = reluAffine y (row b) W (row c) := by
  funext j
  obtain ⟨p, q, rfl⟩ : ∃ (p : Fin n) (q : Fin C), j = ix2 p q := ⟨j 0, j 1, eq_ix2 j⟩
  rw [reluAffine_apply]
  refine congrArg₂ (· + ·) ?_ (bias_rows_apply c g1 g2 p q)
  exact congrFun (host_reluLinear D hD h1 h2 h0 y b W) (ix2 p q)

end Gcn.LayerOps

end
-- ==== Proof.Region0.lean ====
/-
  The first row-tiled call: (x · W_pre + b_pre) · W_1 on blocks of 4000 rows.

  The call walks the 100000 rows of x in 25 blocks of 4000; at point t it reads rows 4000t … 4000t + 3999 of x and the whole
  of the two weight arrays and of the bias row, and writes rows 4000t … 4000t + 3999 of its result. An entry of the layer
  reads one row of x, so block t of the result is block t of the layer of the whole arrays, and the 25 blocks cover the
  result: after the call the result array IS the layer of the arrays the call found. Stated for any contents `V` of the
  buffers at the call's entry.
-/
import proofs.«135698_j83657372991833_2_alg».proof.Proof.Gen.KernelIdeal.Frame
import proofs.«135698_j83657372991833_2_alg».proof.Proof.LibRowLayerOps
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)
open Gcn.Layers Gcn.LayerOps

namespace Cert.KernelIdeal.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value is the layer of its four loaded blocks. -/
theorem pay_eq (v0 : Vec Ideal S4000x256 .f32) (v2 : Vec Ideal S256x128 .bf16) (v5 : Vec Ideal S1x128 .f32)
    (v10 : Vec Ideal S128x128 .bf16) : k0_pay1 (F := Ideal) v0 v2 v5 v10 = affineLinear v0 v2 v5 v10 := by
  unfold k0_pay1
  dsimp only
  simp only [shapeCast_self]
  exact kernel_affineLinear _ rfl _ rfl _ _ v0 v2 v5 v10

/-- The index maps over the grid: the row windows move with the point, the others stay at block (0, 0). -/
theorem idx_facts : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `p` of the block of x at point `t` is row `4000 t + p` of x. -/
theorem xblock_row (c : Dev nD) (t : Fin cfg0.N) (p : Fin 4000) (l : Fin 256) (r : Fin 100000)
    (hr : r.val = t.val * 4000 + p.val) :
    (iblk0 V c 0 t : Vec Ideal S4000x256 .f32) (ix2 p l) = (V c main_arg0 : S100000x256.Idx → EReal) (ix2 r l) := by
  obtain ⟨e0, e1, -⟩ := idx_facts t
  unfold iblk0
  rw [View.read_apply]
  show (V c main_arg0 : S100000x256.Idx → EReal) (((cfg0.win 0).blk t).view.emb (ix2 p l)) = _
  refine congrArg (V c main_arg0 : S100000x256.Idx → EReal) (funext fun a => Fin.ext ?_)
  match a with
  | ⟨0, _⟩ => show win0_0.index t (0 : Fin 2) * 4000 + 1 * p.val = r.val; rw [e0, hr]; omega
  | ⟨1, _⟩ => show win0_0.index t (1 : Fin 2) * 256 + 1 * l.val = l.val; rw [e1]; omega

/-- The block of the first weight array at any point is the whole array. -/
theorem wpre_block (c : Dev nD) (t : Fin cfg0.N) :
    (iblk0 V c 1 t : Vec Ideal S256x128 .bf16) = (V c main_v31 : S256x128.Idx → EReal) := by
  obtain ⟨-, -, e0, e1, -⟩ := idx_facts t
  unfold iblk0
  funext y
  rw [View.read_apply]
  show (V c main_v31 : S256x128.Idx → EReal) (((cfg0.win 1).blk t).view.emb y) = _
  refine congrArg (V c main_v31 : S256x128.Idx → EReal) (funext fun a => Fin.ext ?_)
  match a with
  | ⟨0, _⟩ => show win0_1.index t (0 : Fin 2) * 256 + 1 * (y 0).val = (y 0).val; rw [e0]; omega
  | ⟨1, _⟩ => show win0_1.index t (1 : Fin 2) * 128 + 1 * (y 1).val = (y 1).val; rw [e1]; omega

/-- The block of the bias row at any point is the whole row. -/
theorem bias_block (c : Dev nD) (t : Fin cfg0.N) :
    (iblk0 V c 2 t : Vec Ideal S1x128 .f32) = (V c main_v30 : S1x128.Idx → EReal) := by
  obtain ⟨-, -, -, -, e0, e1, -⟩ := idx_facts t
  unfold iblk0
  funext y
  rw [View.read_apply]
  show (V c main_v30 : S1x128.Idx → EReal) (((cfg0.win 2).blk t).view.emb y) = _
  refine congrArg (V c main_v30 : S1x128.Idx → EReal) (funext fun a => Fin.ext ?_)
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- The block of the second weight array at any point is the whole array. -/
theorem w1_block (c : Dev nD) (t : Fin cfg0.N) :
    (iblk0 V c 3 t : Vec Ideal S128x128 .bf16) = (V c main_v32 : S128x128.Idx → EReal) := by
  obtain ⟨-, -, -, -, -, -, e0, e1, -⟩ := idx_facts t
  unfold iblk0
  funext y
  rw [View.read_apply]
  show (V c main_v32 : S128x128.Idx → EReal) (((cfg0.win 3).blk t).view.emb y) = _
  refine congrArg (V c main_v32 : S128x128.Idx → EReal) (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- What the call's arrays end at: the layer of the arrays it found. -/
abbrev result (c : Dev nD) : S100000x128.Idx → EReal :=
  affineLinear (V c main_arg0 : S100000x256.Idx → EReal) (V c main_v31 : S256x128.Idx → EReal)
    (V c main_v30 : S1x128.Idx → EReal) (V c main_v32 : S128x128.Idx → EReal)

/-- What point `t` writes back is block `t` of the layer of the whole arrays. -/
theorem flushed_eq (c : Dev nD) (t : Fin cfg0.N) :
    (dat0 V c).flushed 4 t = ((cfg0.win 4).blk t).view.read (Elt Ideal) (result V c) := by
  show (cfg0.win 4).cut (grid0.coords t) ((dat0 V c).after 4 t) = _
  rw [after0_4]
  unfold out0_4
  rw [View.canon_unit_zero hz]
  simp only [View.ld_unit_zero (S := S4000x256) hz, View.ld_unit_zero (S := S256x128) hz,
    View.ld_unit_zero (S := S1x128) hz, View.ld_unit_zero (S := S128x128) hz]
  rw [pay_eq, wpre_block V c t, bias_block V c t, w1_block V c t]
  obtain ⟨-, -, -, -, -, -, -, -, e8, e9⟩ := idx_facts t
  have hN : cfg0.N = 25 := N_0
  funext j
  obtain ⟨p, q, rfl⟩ : ∃ (p : Fin 4000) (q : Fin 128), j = ix2 p q := ⟨j 0, j 1, eq_ix2 j⟩
  have hlt : t.val * 4000 + p.val < 100000 := by have := t.isLt; have := p.isLt; omega
  rw [View.read_apply]
  have he : ((cfg0.win 4).blk t).view.emb (ix2 p q) = ix2 (⟨t.val * 4000 + p.val, hlt⟩ : Fin 100000) q :=
    funext fun a => Fin.ext (by
      match a with
      | ⟨0, _⟩ => show win0_4.index t (0 : Fin 2) * 4000 + 1 * p.val = t.val * 4000 + p.val; rw [e8]; omega
      | ⟨1, _⟩ => show win0_4.index t (1 : Fin 2) * 128 + 1 * q.val = q.val; rw [e9]; omega)
  rw [he]
  exact affineLinear_block _ _ _ _ _ p ⟨t.val * 4000 + p.val, hlt⟩ (fun l => xblock_row V c t p l _ rfl) q

/-- An index of the result array is in point `t`'s block iff each coordinate is in the block's range. -/
theorem mem_blk (t : Fin cfg0.N) (i : S100000x128.Idx) :
    i ∈ ((cfg0.win 4).blk t).view.set ↔ ∀ a : Fin 2, win0_4.index t a * S4000x128.size a ≤ (i a).val
      ∧ (i a).val < win0_4.index t a * S4000x128.size a + S4000x128.size a := by
  show i ∈ ((View.whole main_v33).slice (win0_4.rect t)).set ↔ _
  rw [View.set_slice_whole, Rect.mem_set_unit]
  exact Iff.rfl

/-- THE RESULT ARRAY after the call: the layer of the arrays the call found. Row `r` is written by point `r / 4000`. -/
theorem final (c : Dev nD) : (dat0 V c).arrAt 4 cfg0.N = result V c :=
  (dat0 V c).arrAt_eq_of_cover 4 (result V c) (fun t _ => flushed_eq V c t) fun i => by
    have hi0 : (i 0).val < 100000 := (i 0).isLt
    have hi1 : (i 1).val < 128 := (i 1).isLt
    have hN : cfg0.N = 25 := N_0
    have ht : (i 0).val / 4000 < cfg0.N := by rw [hN]; omega
    obtain ⟨-, -, -, -, -, -, -, -, e8, e9⟩ := idx_facts ⟨(i 0).val / 4000, ht⟩
    refine ⟨⟨(i 0).val / 4000, ht⟩, flush0_4 _, ?_⟩
    rw [mem_blk]
    intro a
    match a with
    | ⟨0, _⟩ =>
      show win0_4.index ⟨(i 0).val / 4000, ht⟩ (0 : Fin 2) * 4000 ≤ (i 0).val
        ∧ (i 0).val < win0_4.index ⟨(i 0).val / 4000, ht⟩ (0 : Fin 2) * 4000 + 4000
      rw [e8]; show (i 0).val / 4000 * 4000 ≤ (i 0).val ∧ (i 0).val < (i 0).val / 4000 * 4000 + 4000; omega
    | ⟨1, _⟩ =>
      show win0_4.index ⟨(i 0).val / 4000, ht⟩ (1 : Fin 2) * 128 ≤ (i 1).val
        ∧ (i 1).val < win0_4.index ⟨(i 0).val / 4000, ht⟩ (1 : Fin 2) * 128 + 128
      rw [e9]; omega

end Cert.KernelIdeal.Region0

end
-- ==== Proof.Region1.lean ====
/-
  The second row-tiled call: max (agg + b_1) 0 · W_2 on blocks of 4000 rows.

  At point t the call reads rows 4000t … 4000t + 3999 of the aggregated features and the whole of the bias row and of the
  weight array, and writes the same rows of its result; an entry of the layer reads one row, so the 25 blocks written are
  the 25 blocks of the layer of the whole arrays. Stated for any contents `V` of the buffers at the call's entry.
-/
import proofs.«135698_j83657372991833_2_alg».proof.Proof.Gen.KernelIdeal.Frame
import proofs.«135698_j83657372991833_2_alg».proof.Proof.LibRowLayerOps
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)
open Gcn.Layers Gcn.LayerOps

namespace Cert.KernelIdeal.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value is the layer of its three loaded blocks. -/
theorem pay_eq (v0 : Vec Ideal S4000x128 .f32) (v2 : Vec Ideal S1x128 .f32) (v9 : Vec Ideal S128x128 .bf16) :
    k1_pay1 (F := Ideal) v0 v2 v9 = reluLinear v0 v2 v9 := by
  unfold k1_pay1
  dsimp only
  simp only [shapeCast_self]
  exact kernel_reluLinear _ rfl _ _ v0 v2 v9

/-- The index maps over the grid: the row windows move with the point, the others stay at block (0, 0). -/
theorem idx_facts : ∀ t : Fin cfg1.N,
      win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of the row window's block at point `t` is row `4000 t + p` of its array. -/
theorem rows_block (c : Dev nD) (t : Fin cfg1.N) (p : Fin 4000) (l : Fin 128) (r : Fin 100000)
    (hr : r.val = t.val * 4000 + p.val) :
    (iblk1 V c 0 t : Vec Ideal S4000x128 .f32) (ix2 p l) = (V c main_v47 : S100000x128.Idx → EReal) (ix2 r l) := by
  obtain ⟨e0, e1, -⟩ := idx_facts t
  unfold iblk1
  rw [View.read_apply]
  show (V c main_v47 : S100000x128.Idx → EReal) (((cfg1.win 0).blk t).view.emb (ix2 p l)) = _
  refine congrArg (V c main_v47 : S100000x128.Idx → EReal) (funext fun a => Fin.ext ?_)
  match a with
  | ⟨0, _⟩ => show win1_0.index t (0 : Fin 2) * 4000 + 1 * p.val = r.val; rw [e0, hr]; omega
  | ⟨1, _⟩ => show win1_0.index t (1 : Fin 2) * 128 + 1 * l.val = l.val; rw [e1]; omega

/-- The block of the bias row at any point is the whole row. -/
theorem bias_block (c : Dev nD) (t : Fin cfg1.N) :
    (iblk1 V c 1 t : Vec Ideal S1x128 .f32) = (V c main_v49 : S1x128.Idx → EReal) := by
  obtain ⟨-, -, e0, e1, -⟩ := idx_facts t
  unfold iblk1
  funext y
  rw [View.read_apply]
  show (V c main_v49 : S1x128.Idx → EReal) (((cfg1.win 1).blk t).view.emb y) = _
  refine congrArg (V c main_v49 : S1x128.Idx → EReal) (funext fun a => Fin.ext ?_)
  match a with
  | ⟨0, _⟩ => show win1_1.index t (0 : Fin 2) * 1 + 1 * (y 0).val = (y 0).val; rw [e0]; omega
  | ⟨1, _⟩ => show win1_1.index t (1 : Fin 2) * 128 + 1 * (y 1).val = (y 1).val; rw [e1]; omega

/-- The block of the weight array at any point is the whole array. -/
theorem weight_block (c : Dev nD) (t : Fin cfg1.N) :
    (iblk1 V c 2 t : Vec Ideal S128x128 .bf16) = (V c main_v48 : S128x128.Idx → EReal) := by
  obtain ⟨-, -, -, -, e0, e1, -⟩ := idx_facts t
  unfold iblk1
  funext y
  rw [View.read_apply]
  show (V c main_v48 : S128x128.Idx → EReal) (((cfg1.win 2).blk t).view.emb y) = _
  refine congrArg (V c main_v48 : S128x128.Idx → EReal) (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- What the call's result array ends at: the layer of the arrays it found. -/
abbrev result (c : Dev nD) : S100000x128.Idx → EReal :=
  reluLinear (V c main_v47 : S100000x128.Idx → EReal) (V c main_v49 : S1x128.Idx → EReal)
    (V c main_v48 : S128x128.Idx → EReal)

/-- What point `t` writes back is block `t` of the layer of the whole arrays. -/
theorem flushed_eq (c : Dev nD) (t : Fin cfg1.N) :
    (dat1 V c).flushed 3 t = ((cfg1.win 3).blk t).view.read (Elt Ideal) (result V c) := by
  show (cfg1.win 3).cut (grid1.coords t) ((dat1 V c).after 3 t) = _
  rw [after1_3]
  unfold out1_3
  rw [View.canon_unit_zero hz]
  simp only [View.ld_unit_zero (S := S4000x128) hz, View.ld_unit_zero (S := S1x128) hz, View.ld_unit_zero (S := S128x128) hz]
  rw [pay_eq, bias_block V c t, weight_block V c t]
  obtain ⟨-, -, -, -, -, -, e8, e9⟩ := idx_facts t
  have hN : cfg1.N = 25 := N_1
  funext j
  obtain ⟨p, q, rfl⟩ : ∃ (p : Fin 4000) (q : Fin 128), j = ix2 p q := ⟨j 0, j 1, eq_ix2 j⟩
  have hlt : t.val * 4000 + p.val < 100000 := by have := t.isLt; have := p.isLt; omega
  rw [View.read_apply]
  have he : ((cfg1.win 3).blk t).view.emb (ix2 p q) = ix2 (⟨t.val * 4000 + p.val, hlt⟩ : Fin 100000) q :=
    funext fun a => Fin.ext (by
      match a with
      | ⟨0, _⟩ => show win1_3.index t (0 : Fin 2) * 4000 + 1 * p.val = t.val * 4000 + p.val; rw [e8]; omega
      | ⟨1, _⟩ => show win1_3.index t (1 : Fin 2) * 128 + 1 * q.val = q.val; rw [e9]; omega)
  rw [he]
  exact reluLinear_block _ _ _ _ p ⟨t.val * 4000 + p.val, hlt⟩ (fun l => rows_block V c t p l _ rfl) q

/-- An index of the result array is in point `t`'s block iff each coordinate is in the block's range. -/
theorem mem_blk (t : Fin cfg1.N) (i : S100000x128.Idx) :
    i ∈ ((cfg1.win 3).blk t).view.set ↔ ∀ a : Fin 2, win1_3.index t a * S4000x128.size a ≤ (i a).val
      ∧ (i a).val < win1_3.index t a * S4000x128.size a + S4000x128.size a := by
  show i ∈ ((View.whole main_v50).slice (win1_3.rect t)).set ↔ _
  rw [View.set_slice_whole, Rect.mem_set_unit]
  exact Iff.rfl

/-- THE RESULT ARRAY after the call: the layer of the arrays the call found. Row `r` is written by point `r / 4000`. -/
theorem final (c : Dev nD) : (dat1 V c).arrAt 3 cfg1.N = result V c :=
  (dat1 V c).arrAt_eq_of_cover 3 (result V c) (fun t _ => flushed_eq V c t) fun i => by
    have hi0 : (i 0).val < 100000 := (i 0).isLt
    have hi1 : (i 1).val < 128 := (i 1).isLt
    have hN : cfg1.N = 25 := N_1
    have ht : (i 0).val / 4000 < cfg1.N := by rw [hN]; omega
    obtain ⟨-, -, -, -, -, -, e8, e9⟩ := idx_facts ⟨(i 0).val / 4000, ht⟩
    refine ⟨⟨(i 0).val / 4000, ht⟩, flush1_3 _, ?_⟩
    rw [mem_blk]
    intro a
    match a with
    | ⟨0, _⟩ =>
      show win1_3.index ⟨(i 0).val / 4000, ht⟩ (0 : Fin 2) * 4000 ≤ (i 0).val
        ∧ (i 0).val < win1_3.index ⟨(i 0).val / 4000, ht⟩ (0 : Fin 2) * 4000 + 4000
      rw [e8]; show (i 0).val / 4000 * 4000 ≤ (i 0).val ∧ (i 0).val < (i 0).val / 4000 * 4000 + 4000; omega
    | ⟨1, _⟩ =>
      show win1_3.index ⟨(i 0).val / 4000, ht⟩ (1 : Fin 2) * 128 ≤ (i 1).val
        ∧ (i 1).val < win1_3.index ⟨(i 0).val / 4000, ht⟩ (1 : Fin 2) * 128 + 128
      rw [e9]; omega

end Cert.KernelIdeal.Region1

end
-- ==== Proof.LibLogSoftmaxRows.lean ====
/-
  The logarithm of a row softmax as the two programs spell it, for any number of rows and columns.

  Both take each row's maximum from −∞ (the kernel by a lane reduction that keeps its axis as one column, the host by a
  `reduce` followed by a maximum with a splat of −∞, which changes nothing), subtract it, exponentiate, sum along the row
  from zero, take the logarithm and subtract it. A fold of `max` from the bottom element over a row is the row's supremum,
  in any order; a sum from zero is the row's sum. So both are `Layers.logSoftmaxRows`.
-/
import proofs.«135698_j83657372991833_2_alg».proof.Proof.LibRowLayerOps

noncomputable section

open scoped BigOperators

namespace Gcn.SoftmaxOps

open Idealize.ShloMosaic Idealize.ShloMosaic.ValueIdx Gcn.Layers Gcn.LayerOps

variable {n C : ℕ}

/-- Whatever spells them: if `M` holds each row's maximum on every column and `T` the logarithm of the row's sum of
    `exp (z − M)`, then `(z − M) − T` is the logarithm of the row softmax. -/
theorem logSoftmax_of_parts (z M T : (⟨2, ![n, C]⟩ : Shape).Idx → EReal)
    (hM : ∀ (p : Fin n) (q : Fin C), M (ix2 p q) = rowMax z p)
    (hT : ∀ (p : Fin n) (q : Fin C), T (ix2 p q) = Ideal.log (∑ j : Fin C, Ideal.exp (z (ix2 p j) - M (ix2 p j)))) :
    subf (F := Ideal) (φ := .f32) (subf (F := Ideal) (φ := .f32) z M) T = logSoftmaxRows z := by
  funext j
  obtain ⟨p, q, rfl⟩ : ∃ (p : Fin n) (q : Fin C), j = ix2 p q := ⟨j 0, j 1, eq_ix2 j⟩
  rw [logSoftmaxRows_apply]
  show (z (ix2 p q) - M (ix2 p q)) - T (ix2 p q) = _
  rw [hM p q, hT p q]
  refine congrArg (fun s => (z (ix2 p q) - rowMax z p) - Ideal.log s) (Finset.sum_congr rfl fun j _ => ?_)
  rw [hM p j]

/-! ## The kernel's spelling -/

/-- A vector of per-row values kept as one column and spread over the columns: entry `(p, q)` is row `p`'s value. -/
theorem column_spread_apply (v : (⟨1, ![n]⟩ : Shape).Idx → EReal) (hsc : (⟨1, ![n]⟩ : Shape).ShapeCasts ⟨2, ![n, 1]⟩)
    (hbc : (⟨2, ![n, 1]⟩ : Shape).Broadcasts ⟨2, ![n, C]⟩) (p : Fin n) (q : Fin C) :
    broadcastTo ⟨2, ![n, C]⟩ (shapeCast ⟨2, ![n, 1]⟩ v hsc) hbc (ix2 p q) = v (ix1 p) :=
  (LaneRows.broadcastTo_col_apply _ hbc p q).trans (HostMax.shapeCast_col_apply v hsc (ix2 p (0 : Fin 1)) p rfl)

/-- The kernel's logarithm of a row softmax on a block. -/
theorem kernel_logSoftmaxRows (hr : (⟨2, ![n, C]⟩ : Shape).Reduces [1] ⟨1, ![n]⟩) (hφ : FKind.Formats .f32)
    (hmax : (0xFF800000#32 : BitVec FTy.f32.bits) = FKind.maximumf.neutral .f32 hφ)
    (hadd : (0x00000000#32 : BitVec FTy.f32.bits) = FKind.add.neutral .f32 hφ)
    (hsc : (⟨1, ![n]⟩ : Shape).ShapeCasts ⟨2, ![n, 1]⟩) (hbc : (⟨2, ![n, 1]⟩ : Shape).Broadcasts ⟨2, ![n, C]⟩)
    (z : FVec Ideal ⟨2, ![n, C]⟩ .f32) :
    subf (subf z (broadcastTo ⟨2, ![n, C]⟩
        (shapeCast ⟨2, ![n, 1]⟩ (multiReduction .maximumf [1] ⟨1, ![n]⟩ z 0xFF800000#32 hr hφ hmax) hsc) hbc))
      (broadcastTo ⟨2, ![n, C]⟩ (log (shapeCast ⟨2, ![n, 1]⟩ (multiReduction .add [1] ⟨1, ![n]⟩
        (exp (subf z (broadcastTo ⟨2, ![n, C]⟩
          (shapeCast ⟨2, ![n, 1]⟩ (multiReduction .maximumf [1] ⟨1, ![n]⟩ z 0xFF800000#32 hr hφ hmax) hsc) hbc)))
        0x00000000#32 hr hφ hadd) hsc)) hbc)
      = logSoftmaxRows z := by
  refine logSoftmax_of_parts z _ _ (fun p q => ?_) (fun p q => ?_)
  · exact (column_spread_apply _ hsc hbc p q).trans (HostMax.multiReduction_rows z hr hφ hmax p)
  · refine (LaneRows.broadcastTo_col_apply _ hbc p q).trans ?_
    show Ideal.log (shapeCast ⟨2, ![n, 1]⟩ _ hsc (ix2 p (0 : Fin 1))) = _
    rw [HostMax.shapeCast_col_apply _ hsc (ix2 p (0 : Fin 1)) p rfl, LaneRows.multiReduction_add_rows _ _ hr hφ hadd p]
    rfl

/-! ## The host's spelling -/

/-- A vector of per-row values set as one column (`dims = [0]`) and repeated over the columns (`dims = [0, 1]`). -/
theorem column_bcast_apply (v : (⟨1, ![n]⟩ : Shape).Idx → EReal)
    (b1 : (⟨1, ![n]⟩ : Shape).BroadcastsInDim ⟨2, ![n, 1]⟩ ![0])
    (b2 : (⟨2, ![n, 1]⟩ : Shape).BroadcastsInDim ⟨2, ![n, C]⟩ ![0, 1]) (p : Fin n) (q : Fin C) :
    broadcastInDim ⟨2, ![n, C]⟩ ![0, 1] b2 (broadcastInDim ⟨2, ![n, 1]⟩ ![0] b1 v) (ix2 p q) = v (ix1 p) := by
  refine (broadcastInDim_apply _ b2 _ (ix2 p q) (ix2 p (0 : Fin 1)) fun ax => ?_).trans ?_
  · match ax with
    | ⟨0, _⟩ =>
      show p.val = if n = 1 then 0 else p.val
      split
      · have := p.isLt; omega
      · rfl
    | ⟨1, _⟩ => show (0 : ℕ) = if (1 : ℕ) = 1 then 0 else q.val; rw [if_pos rfl]
  · refine broadcastInDim_apply _ b1 v (ix2 p (0 : Fin 1)) (ix1 p) fun ax => ?_
    match ax with
    | ⟨0, _⟩ =>
      show p.val = if n = 1 then 0 else p.val
      split
      · have := p.isLt; omega
      · rfl

/-- The host's sum along each row, from zero. -/
theorem host_rowSum (x : FVec Ideal ⟨2, ![n, C]⟩ .f32) (hred : (⟨2, ![n, C]⟩ : Shape).ReducesTo [1] ⟨1, ![n]⟩)
    (hr : (⟨2, ![n, C]⟩ : Shape).Reduces [1] ⟨1, ![n]⟩) (hu : 0 < (⟨0, ![]⟩ : Shape).numel) (p : Fin n) :
    Host.reduceAdd x (constant (F := Ideal) ⟨0, ![]⟩ .f32 0x00000000#32) hred hu (ix1 p) = ∑ k : Fin C, x (ix2 p k) := by
  refine (Ideal.hostReduceAdd_single hred hr x _ (ix1 p)).trans ?_
  have hf : (x ∘ hr.lift (ix1 p)) = fun k : Fin C => x (ix2 p k) :=
    funext fun k => congrArg x (HostMax.lift_rows hr p k)
  rw [show constant (F := Ideal) ⟨0, ![]⟩ .f32 0x00000000#32 (Shape.Idx.first hu) = (0 : EReal) from ofBits_zero, zero_add]
  exact congrArg (fun f => ∑ k : Fin C, f k) hf

/-- The host's maximum along each row, from −∞, then once more against a splat of −∞: the row's supremum. -/
theorem host_rowMax (z : FVec Ideal ⟨2, ![n, C]⟩ .f32) (hred : (⟨2, ![n, C]⟩ : Shape).ReducesTo [1] ⟨1, ![n]⟩)
    (hr : (⟨2, ![n, C]⟩ : Shape).Reduces [1] ⟨1, ![n]⟩) (hu : 0 < (⟨0, ![]⟩ : Shape).numel)
    (b0 : (⟨0, ![]⟩ : Shape).BroadcastsInDim ⟨1, ![n]⟩ ![]) (p : Fin n) :
    maximumf (broadcastInDim ⟨1, ![n]⟩ ![] b0 (constant (F := Ideal) ⟨0, ![]⟩ .f32 0xFF800000#32))
        (Host.reduce FloatOps.maximumf z (constant (F := Ideal) ⟨0, ![]⟩ .f32 0xFF800000#32) hred hu) (ix1 p)
      = rowMax z p := by
  show max (broadcastInDim ⟨1, ![n]⟩ ![] b0 (constant (F := Ideal) ⟨0, ![]⟩ .f32 0xFF800000#32) (ix1 p))
      (Host.reduce FloatOps.maximumf z (constant (F := Ideal) ⟨0, ![]⟩ .f32 0xFF800000#32) hred hu (ix1 p)) = _
  rw [HostMax.reduce_rows z (constant (F := Ideal) ⟨0, ![]⟩ .f32 0xFF800000#32) (fun _ => ofBits_neg_inf) hred hr hu p,
    (broadcastInDim_apply _ b0 _ (ix1 p) ix0 fun ax => ax.elim0).trans ofBits_neg_inf]
  exact max_eq_right bot_le

/-- The host's logarithm of a row softmax on the whole array. -/
theorem host_logSoftmaxRows (hred : (⟨2, ![n, C]⟩ : Shape).ReducesTo [1] ⟨1, ![n]⟩)
    (hr : (⟨2, ![n, C]⟩ : Shape).Reduces [1] ⟨1, ![n]⟩) (hu : 0 < (⟨0, ![]⟩ : Shape).numel)
    (b0 : (⟨0, ![]⟩ : Shape).BroadcastsInDim ⟨1, ![n]⟩ ![])
    (b1 : (⟨1, ![n]⟩ : Shape).BroadcastsInDim ⟨2, ![n, 1]⟩ ![0])
    (b2 : (⟨2, ![n, 1]⟩ : Shape).BroadcastsInDim ⟨2, ![n, C]⟩ ![0, 1])
    (z : FVec Ideal ⟨2, ![n, C]⟩ .f32) :
    subf (subf z (broadcastInDim ⟨2, ![n, C]⟩ ![0, 1] b2 (broadcastInDim ⟨2, ![n, 1]⟩ ![0] b1
        (maximumf (broadcastInDim ⟨1, ![n]⟩ ![] b0 (constant (F := Ideal) ⟨0, ![]⟩ .f32 0xFF800000#32))
          (Host.reduce FloatOps.maximumf z (constant (F := Ideal) ⟨0, ![]⟩ .f32 0xFF800000#32) hred hu)))))
      (broadcastInDim ⟨2, ![n, C]⟩ ![0, 1] b2 (Host.log (broadcastInDim ⟨2, ![n, 1]⟩ ![0] b1
        (Host.reduceAdd (Host.exp (subf z (broadcastInDim ⟨2, ![n, C]⟩ ![0, 1] b2 (broadcastInDim ⟨2, ![n, 1]⟩ ![0] b1
          (maximumf (broadcastInDim ⟨1, ![n]⟩ ![] b0 (constant (F := Ideal) ⟨0, ![]⟩ .f32 0xFF800000#32))
            (Host.reduce FloatOps.maximumf z (constant (F := Ideal) ⟨0, ![]⟩ .f32 0xFF800000#32) hred hu))))))
          (constant (F := Ideal) ⟨0, ![]⟩ .f32 0x00000000#32) hred hu))))
      = logSoftmaxRows z := by
  refine logSoftmax_of_parts z _ _ (fun p q => ?_) (fun p q => ?_)
  · exact (column_bcast_apply _ b1 b2 p q).trans (host_rowMax z hred hr hu b0 p)
  · refine (broadcastInDim_apply _ b2 _ (ix2 p q) (ix2 p (0 : Fin 1)) fun ax => ?_).trans ?_
    · match ax with
      | ⟨0, _⟩ =>
        show p.val = if n = 1 then 0 else p.val
        split
        · have := p.isLt; omega
        · rfl
      | ⟨1, _⟩ => show (0 : ℕ) = if (1 : ℕ) = 1 then 0 else q.val; rw [if_pos rfl]
    · show Ideal.log (broadcastInDim (s := ⟨1, ![n]⟩) ⟨2, ![n, 1]⟩ ![0] b1 _ (ix2 p (0 : Fin 1))) = _
      rw [broadcastInDim_apply _ b1 _ (ix2 p (0 : Fin 1)) (ix1 p) (fun ax => by
        match ax with
        | ⟨0, _⟩ =>
          show p.val = if n = 1 then 0 else p.val
          split
          · have := p.isLt; omega
          · rfl), host_rowSum _ hred hr hu p]
      rfl

end Gcn.SoftmaxOps

end
-- ==== Proof.Region2.lean ====
/-
  The third row-tiled call: the logarithm of the row softmax of max (agg + b_2) 0 · W_post + b_post, on blocks of 4000 rows.

  At point t the call reads rows 4000t … 4000t + 3999 of the aggregated features and the whole of the two bias rows and of
  the weight array, and writes the same rows of its result. An entry of the affine layer reads one row of the features, and
  an entry of the row softmax reads one row of the affine layer; so block t of the result is block t of the composed
  function of the whole arrays. Stated for any contents `V` of the buffers at the call's entry.
-/
import proofs.«135698_j83657372991833_2_alg».proof.Proof.Gen.KernelIdeal.Frame
import proofs.«135698_j83657372991833_2_alg».proof.Proof.LibRowLayerOps
import proofs.«135698_j83657372991833_2_alg».proof.Proof.LibLogSoftmaxRows
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)
open Gcn.Layers Gcn.LayerOps
open Gcn.SoftmaxOps

namespace Cert.KernelIdeal.Region2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value: the logarithm of the row softmax of the affine layer of its four loaded blocks. -/
theorem pay_eq (v0 : Vec Ideal S4000x128 .f32) (v2 : Vec Ideal S1x128 .f32) (v9 : Vec Ideal S128x40 .bf16)
    (v12 : Vec Ideal S1x40 .f32) : k2_pay1 (F := Ideal) v0 v2 v9 v12 = logSoftmaxRows (reluAffine v0 v2 v9 v12) := by
  unfold k2_pay1
  dsimp only
  simp only [shapeCast_self]
  refine (kernel_logSoftmaxRows _ _ _ _ _ _ _).trans ?_
  exact congrArg logSoftmaxRows (kernel_reluAffine _ rfl _ _ _ v0 v2 v9 v12)

/-- The index maps over the grid: the row windows move with the point, the others stay at block (0, 0). -/
theorem idx_facts : ∀ t : Fin cfg2.N,
      win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row `p` of the row window's block at point `t` is row `4000 t + p` of its array. -/
theorem rows_block (c : Dev nD) (t : Fin cfg2.N) (p : Fin 4000) (l : Fin 128) (r : Fin 100000)
    (hr : r.val = t.val * 4000 + p.val) :
    (iblk2 V c 0 t : Vec Ideal S4000x128 .f32) (ix2 p l) = (V c main_v64 : S100000x128.Idx → EReal) (ix2 r l) := by
  obtain ⟨e0, e1, -⟩ := idx_facts t
  unfold iblk2
  rw [View.read_apply]
  show (V c main_v64 : S100000x128.Idx → EReal) (((cfg2.win 0).blk t).view.emb (ix2 p l)) = _
  refine congrArg (V c main_v64 : S100000x128.Idx → EReal) (funext fun a => Fin.ext ?_)
  match a with
  | ⟨0, _⟩ => show win2_0.index t (0 : Fin 2) * 4000 + 1 * p.val = r.val; rw [e0, hr]; omega
  | ⟨1, _⟩ => show win2_0.index t (1 : Fin 2) * 128 + 1 * l.val = l.val; rw [e1]; omega

/-- The block of the input bias row at any point is the whole row. -/
theorem bias_block (c : Dev nD) (t : Fin cfg2.N) :
    (iblk2 V c 1 t : Vec Ideal S1x128 .f32) = (V c main_v66 : S1x128.Idx → EReal) := by
  obtain ⟨-, -, e0, e1, -⟩ := idx_facts t
  unfold iblk2
  funext y
  rw [View.read_apply]
  show (V c main_v66 : S1x128.Idx → EReal) (((cfg2.win 1).blk t).view.emb y) = _
  refine congrArg (V c main_v66 : S1x128.Idx → EReal) (funext fun a => Fin.ext ?_)
  match a with
  | ⟨0, _⟩ => show win2_1.index t (0 : Fin 2) * 1 + 1 * (y 0).val = (y 0).val; rw [e0]; omega
  | ⟨1, _⟩ => show win2_1.index t (1 : Fin 2) * 128 + 1 * (y 1).val = (y 1).val; rw [e1]; omega

/-- The block of the weight array at any point is the whole array. -/
theorem weight_block (c : Dev nD) (t : Fin cfg2.N) :
    (iblk2 V c 2 t : Vec Ideal S128x40 .bf16) = (V c main_v65 : S128x40.Idx → EReal) := by
  obtain ⟨-, -, -, -, e0, e1, -⟩ := idx_facts t
  unfold iblk2
  funext y
  rw [View.read_apply]
  show (V c main_v65 : S128x40.Idx → EReal) (((cfg2.win 2).blk t).view.emb y) = _
  refine congrArg (V c main_v65 : S128x40.Idx → EReal) (funext fun a => Fin.ext ?_)
  match a with
  | ⟨0, _⟩ => show win2_2.index t (0 : Fin 2) * 128 + 1 * (y 0).val = (y 0).val; rw [e0]; omega
  | ⟨1, _⟩ => show win2_2.index t (1 : Fin 2) * 40 + 1 * (y 1).val = (y 1).val; rw [e1]; omega

/-- The block of the output bias row at any point is the whole row. -/
theorem outbias_block (c : Dev nD) (t : Fin cfg2.N) :
    (iblk2 V c 3 t : Vec Ideal S1x40 .f32) = (V c main_v67 : S1x40.Idx → EReal) := by
  obtain ⟨-, -, -, -, -, -, e0, e1, -⟩ := idx_facts t
  unfold iblk2
  funext y
  rw [View.read_apply]
  show (V c main_v67 : S1x40.Idx → EReal) (((cfg2.win 3).blk t).view.emb y) = _
  refine congrArg (V c main_v67 : S1x40.Idx → EReal) (funext fun a => Fin.ext ?_)
  match a with
  | ⟨0, _⟩ => show win2_3.index t (0 : Fin 2) * 1 + 1 * (y 0).val = (y 0).val; rw [e0]; omega
  | ⟨1, _⟩ => show win2_3.index t (1 : Fin 2) * 40 + 1 * (y 1).val = (y 1).val; rw [e1]; omega

/-- What the call's result array ends at: the logarithm of the row softmax of the affine layer of the arrays it found. -/
abbrev result (c : Dev nD) : S100000x40.Idx → EReal :=
  logSoftmaxRows (reluAffine (V c main_v64 : S100000x128.Idx → EReal) (V c main_v66 : S1x128.Idx → EReal)
    (V c main_v65 : S128x40.Idx → EReal) (V c main_v67 : S1x40.Idx → EReal))

/-- What point `t` writes back is block `t` of the layer of the whole arrays. -/
theorem flushed_eq (c : Dev nD) (t : Fin cfg2.N) :
    (dat2 V c).flushed 4 t = ((cfg2.win 4).blk t).view.read (Elt Ideal) (result V c) := by
  show (cfg2.win 4).cut (grid2.coords t) ((dat2 V c).after 4 t) = _
  rw [after2_4]
  unfold out2_4
  rw [View.canon_unit_zero hz]
  simp only [View.ld_unit_zero (S := S4000x128) hz, View.ld_unit_zero (S := S1x128) hz, View.ld_unit_zero (S := S128x40) hz, View.ld_unit_zero (S := S1x40) hz]
  rw [pay_eq, bias_block V c t, weight_block V c t, outbias_block V c t]
  obtain ⟨-, -, -, -, -, -, -, -, e8, e9⟩ := idx_facts t
  have hN : cfg2.N = 25 := N_2
  funext j
  obtain ⟨p, q, rfl⟩ : ∃ (p : Fin 4000) (q : Fin 40), j = ix2 p q := ⟨j 0, j 1, eq_ix2 j⟩
  have hlt : t.val * 4000 + p.val < 100000 := by have := t.isLt; have := p.isLt; omega
  rw [View.read_apply]
  have he : ((cfg2.win 4).blk t).view.emb (ix2 p q) = ix2 (⟨t.val * 4000 + p.val, hlt⟩ : Fin 100000) q :=
    funext fun a => Fin.ext (by
      match a with
      | ⟨0, _⟩ => show win2_4.index t (0 : Fin 2) * 4000 + 1 * p.val = t.val * 4000 + p.val; rw [e8]; omega
      | ⟨1, _⟩ => show win2_4.index t (1 : Fin 2) * 40 + 1 * q.val = q.val; rw [e9]; omega)
  rw [he]
  exact logSoftmaxRows_block _ _ p ⟨t.val * 4000 + p.val, hlt⟩ (fun j => reluAffine_block _ _ _ _ _ p ⟨t.val * 4000 + p.val, hlt⟩ (fun l => rows_block V c t p l _ rfl) j) q

/-- An index of the result array is in point `t`'s block iff each coordinate is in the block's range. -/
theorem mem_blk (t : Fin cfg2.N) (i : S100000x40.Idx) :
    i ∈ ((cfg2.win 4).blk t).view.set ↔ ∀ a : Fin 2, win2_4.index t a * S4000x40.size a ≤ (i a).val
      ∧ (i a).val < win2_4.index t a * S4000x40.size a + S4000x40.size a := by
  show i ∈ ((View.whole main_v68).slice (win2_4.rect t)).set ↔ _
  rw [View.set_slice_whole, Rect.mem_set_unit]
  exact Iff.rfl

/-- THE RESULT ARRAY after the call: the composed function of the arrays the call found. Row `r` is written by point `r / 4000`. -/
theorem final (c : Dev nD) : (dat2 V c).arrAt 4 cfg2.N = result V c :=
  (dat2 V c).arrAt_eq_of_cover 4 (result V c) (fun t _ => flushed_eq V c t) fun i => by
    have hi0 : (i 0).val < 100000 := (i 0).isLt
    have hi1 : (i 1).val < 40 := (i 1).isLt
    have hN : cfg2.N = 25 := N_2
    have ht : (i 0).val / 4000 < cfg2.N := by rw [hN]; omega
    obtain ⟨-, -, -, -, -, -, -, -, e8, e9⟩ := idx_facts ⟨(i 0).val / 4000, ht⟩
    refine ⟨⟨(i 0).val / 4000, ht⟩, flush2_4 _, ?_⟩
    rw [mem_blk]
    intro a
    match a with
    | ⟨0, _⟩ =>
      show win2_4.index ⟨(i 0).val / 4000, ht⟩ (0 : Fin 2) * 4000 ≤ (i 0).val
        ∧ (i 0).val < win2_4.index ⟨(i 0).val / 4000, ht⟩ (0 : Fin 2) * 4000 + 4000
      rw [e8]; show (i 0).val / 4000 * 4000 ≤ (i 0).val ∧ (i 0).val < (i 0).val / 4000 * 4000 + 4000; omega
    | ⟨1, _⟩ =>
      show win2_4.index ⟨(i 0).val / 4000, ht⟩ (1 : Fin 2) * 40 ≤ (i 1).val
        ∧ (i 1).val < win2_4.index ⟨(i 0).val / 4000, ht⟩ (1 : Fin 2) * 40 + 40
      rw [e9]; omega

end Cert.KernelIdeal.Region2

end
-- ==== Proof.Glue.lean ====
/-
  The graph side of the network: the normalised adjacency, applied to a feature array.

  From the edge list (two rows of node numbers) the program forms the source and target node of every edge followed by one
  self loop per node; the degree of a node is the number of edges that end in it; an edge's weight is the product of the
  inverse square roots of its endpoints' degrees (zero where a degree is not positive); and aggregation gathers the source
  node's feature row for every edge, scales it by the edge's weight and adds it into the target node's row. The kernel
  program and the reference apply exactly these operations, so they are carried here as one function, never opened: the
  certificate needs of it only that equal feature arrays aggregate to equal arrays.
-/
import proofs.«135698_j83657372991833_2_alg».proof.Proof.Gen.KernelIdeal
import Idealize.ShloMosaic.PureOps.Ideal

noncomputable section

namespace Cert.KernelIdeal.Glue

open Cert.KernelIdeal Cert.KernelIdeal.Gen Idealize.ShloMosaic

/-- The source node of every edge, then every node once (its self loop). -/
def srcNodes (e : IVec S2x1600000 32) : IVec S1700000 32 :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

/-- The target node of every edge, then every node once. -/
def dstNodes (e : IVec S2x1600000 32) : IVec S1700000 32 :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- A node number read as an index from the end when negative. -/
def wrapIndex (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- The degree of every node: one added per edge that ends in it. -/
def degree (dst : IVec S1700000 32) : FVec Ideal S100000 .f32 :=
  Host.scatterAdd (F := Ideal) scatter_S100000_S1700000x1_S1700000_n_0_0_1
    (broadcastInDim S100000 ![] bcast_S_S100000 (constant (F := Ideal) S_ .f32 0x00000000#32))
    (broadcastInDim S1700000x1 ![0] bcast_S1700000_S1700000x1_0 dst)
    (broadcastInDim S1700000 ![] bcast_S_S1700000 (constant (F := Ideal) S_ .f32 0x3F800000#32))

/-- The inverse square root of every node's degree, zero where the degree is not positive. -/
def invSqrtDegree (dst : IVec S1700000 32) : FVec Ideal S100000 .f32 :=
  select (cmpf (F := Ideal) .ogt (degree dst) (broadcastInDim S100000 ![] bcast_S_S100000 (constant (F := Ideal) S_ .f32 0x00000000#32)))
    (Host.rsqrt (F := Ideal) (degree dst))
    (broadcastInDim S100000 ![] bcast_S_S100000 (id (constant (F := Ideal) S_ .f32 0x00000000#32)))

/-- The weight of every edge from a per-node factor: the product of the factors at its two endpoints. -/
def edgeNormWith (d : FVec Ideal S100000 .f32) (src dst : IVec S1700000 32) : FVec Ideal S1700000 .f32 :=
  mulf (F := Ideal)
    (Host.gather gather_S100000_S1700000x1_S1700000_n_0_n_n_0_1_1 d (broadcastInDim S1700000x1 ![0] bcast_S1700000_S1700000x1_0 (wrapIndex src)))
    (Host.gather gather_S100000_S1700000x1_S1700000_n_0_n_n_0_1_1 d (broadcastInDim S1700000x1 ![0] bcast_S1700000_S1700000x1_0 (wrapIndex dst)))

/-- The weight of every edge: the product of its endpoints' inverse square root degrees. -/
def edgeNorm (src dst : IVec S1700000 32) : FVec Ideal S1700000 .f32 :=
  edgeNormWith (invSqrtDegree dst) src dst

/-- Aggregation along the edges with given endpoints and weights: every edge adds its source row, scaled by its weight,
    into its target row. -/
def aggregateWith (src dst : IVec S1700000 32) (norm : FVec Ideal S1700000 .f32) (h : S100000x128.Idx → EReal) :
    S100000x128.Idx → EReal :=
  Host.scatterAdd (F := Ideal) (φ := .f32) scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 dst)
    (mulf (F := Ideal) (φ := .f32)
      (Host.gather gather_S100000x128_S1700000x1_S1700000x128_1_0_n_n_0_1_1128 h (broadcastInDim S1700000x1 ![0] bcast_S1700000_S1700000x1_0 (wrapIndex src)))
      (broadcastInDim S1700000x128 ![0, 1] bcast_S1700000x1_S1700000x128_0_1 (broadcastInDim S1700000x1 ![0] bcast_S1700000_S1700000x1_0 norm)))

/-- The normalised adjacency of the edge list `e`, applied to a feature array. -/
def aggregate (e : IVec S2x1600000 32) (h : S100000x128.Idx → EReal) : S100000x128.Idx → EReal :=
  aggregateWith (srcNodes e) (dstNodes e) (edgeNorm (srcNodes e) (dstNodes e)) h

end Cert.KernelIdeal.Glue

end
-- ==== Proof.Network.lean ====
/-
  The whole network as one function of its ten arguments, over the extended reals.

  With `Â` the normalised adjacency of the edge list (Glue.lean) and the layers of LibRowLayers.lean:
      H₁ = (x · W_pre + b_pre) · W₁,   H₂ = max (Â H₁ + b₁) 0 · W₂,   Z = max (Â H₂ + b₂) 0 · W_post + b_post,
  and the result is the logarithm of the row softmax of Z. Both programs compute exactly this, in this order: the kernel
  program with three row-tiled calls for the dense layers, the reference with host products.
-/
import proofs.«135698_j83657372991833_2_alg».proof.Proof.Glue
import proofs.«135698_j83657372991833_2_alg».proof.Proof.LibRowLayerOps

noncomputable section

namespace Cert.KernelIdeal.Glue

open Cert.KernelIdeal Idealize.ShloMosaic Gcn.Layers Gcn.LayerOps

/-- The network's result from its ten arguments. -/
def network (x : S100000x256.Idx → EReal) (e : IVec S2x1600000 32) (Wpre : S256x128.Idx → EReal) (bpre : S128.Idx → EReal)
    (W1 : S128x128.Idx → EReal) (b1 : S128.Idx → EReal) (W2 : S128x128.Idx → EReal) (b2 : S128.Idx → EReal)
    (Wpost : S128x40.Idx → EReal) (bpost : S40.Idx → EReal) : S100000x40.Idx → EReal :=
  logSoftmaxRows (reluAffine (aggregate e (reluLinear (aggregate e (affineLinear x Wpre (row bpre) W1)) (row b1) W2))
    (row b2) Wpost (row bpost))

end Cert.KernelIdeal.Glue

end
-- ==== Proof.Walk.lean ====
/-
  What the kernel program computes: the network of Network.lean at its ten arguments.

  The buffer contents at the eight boundaries of the program are a fold from the launch memory (the generated frame's
  `W0 … W8`). Read forwards: the host stretches before the first call leave the endpoints, the edge weights, the rounded
  weight arrays and the bias row; the first call leaves (x · W_pre + b_pre) · W₁ in its result array (Region0.lean) and
  every other buffer as it was; the next stretch aggregates it along the edges; the second call leaves max (· + b₁) 0 · W₂;
  the next stretch aggregates that; the third call leaves the logarithm of the row softmax of the last dense layer. Over
  the extended reals rounding to a narrower float format is the identity, so the weight arrays are the arguments themselves.
-/
import proofs.«135698_j83657372991833_2_alg».proof.Proof.RunAll
import proofs.«135698_j83657372991833_2_alg».proof.Proof.Region0
import proofs.«135698_j83657372991833_2_alg».proof.Proof.Region1
import proofs.«135698_j83657372991833_2_alg».proof.Proof.Region2
import proofs.«135698_j83657372991833_2_alg».proof.Proof.Network
import Idealize.ShloMosaic.Lib.StableHlo.Run

noncomputable section

namespace Cert.KernelIdeal.Walk

open Cert.KernelIdeal Cert.KernelIdeal.Gen Cert.KernelIdeal.Glue
open Idealize.ShloMosaic Idealize.ShloMosaic.TcCoe Idealize.SL.Sem Idealize.ShloMosaic.StableHlo
open Gcn.Layers Gcn.LayerOps

/-! ## The host stretches, from any contents `W` -/

section Stretches

variable (W : Valuation τ sig (Elt Ideal))

set_option maxHeartbeats 4000000 in
theorem pre_src : after (hostOps0_2 (F := Ideal)) (after hostOps0_1 (after hostOps0 W)) (Proc.devRef .tc main_v3) = srcNodes (W (Proc.devRef .tc main_arg1)) := by
  dsimp only [hostOps0, hostOps0_1, hostOps0_2]
  after_results_simp <;> rfl

set_option maxHeartbeats 4000000 in
theorem pre_dst : after (hostOps0_2 (F := Ideal)) (after hostOps0_1 (after hostOps0 W)) (Proc.devRef .tc main_v6) = dstNodes (W (Proc.devRef .tc main_arg1)) := by
  dsimp only [hostOps0, hostOps0_1, hostOps0_2]
  after_results_simp <;> rfl

/-! The edge weights, one stretch at a time: the degrees and their comparison with zero, the choice between the inverse
    square root and zero, the product of the two endpoint factors. -/

theorem first_src : after (hostOps0 (F := Ideal)) W (Proc.devRef .tc main_v3) = srcNodes (W (Proc.devRef .tc main_arg1)) := by
  dsimp only [hostOps0]
  after_results_simp <;> rfl

theorem first_dst : after (hostOps0 (F := Ideal)) W (Proc.devRef .tc main_v6) = dstNodes (W (Proc.devRef .tc main_arg1)) := by
  dsimp only [hostOps0]
  after_results_simp <;> rfl

theorem first_positive : after (hostOps0 (F := Ideal)) W (Proc.devRef .tc main_v12)
    = cmpf (F := Ideal) .ogt (degree (dstNodes (W (Proc.devRef .tc main_arg1))))
        (broadcastInDim S100000 ![] bcast_S_S100000 (constant (F := Ideal) S_ .f32 0x00000000#32)) := by
  dsimp only [hostOps0]
  after_results_simp <;> rfl

theorem first_rsqrt : after (hostOps0 (F := Ideal)) W (Proc.devRef .tc main_v13) = Host.rsqrt (F := Ideal) (degree (dstNodes (W (Proc.devRef .tc main_arg1)))) := by
  dsimp only [hostOps0]
  after_results_simp <;> rfl

theorem first_zero : after (hostOps0 (F := Ideal)) W (Proc.devRef .tc main_cst_2) = constant (F := Ideal) S_ .f32 0x00000000#32 := by
  dsimp only [hostOps0]
  after_results_simp <;> rfl

theorem where_out : after (hostOps0_1 (F := Ideal)) W (Proc.devRef .tc main_v14)
    = select (W (Proc.devRef .tc main_v12)) (W (Proc.devRef .tc main_v13) : S100000.Idx → EReal)
        (broadcastInDim S100000 ![] bcast_S_S100000 (id (W (Proc.devRef .tc main_cst_2) : S_.Idx → EReal))) := by
  dsimp only [hostOps0_1]
  after_results_simp <;> rfl

theorem where_keep_v3 : after (hostOps0_1 (F := Ideal)) W (Proc.devRef .tc main_v3) = W (Proc.devRef .tc main_v3) := by
  dsimp only [hostOps0_1]
  after_results_simp

theorem where_keep_v6 : after (hostOps0_1 (F := Ideal)) W (Proc.devRef .tc main_v6) = W (Proc.devRef .tc main_v6) := by
  dsimp only [hostOps0_1]
  after_results_simp

theorem weights_out : after (hostOps0_2 (F := Ideal)) W (Proc.devRef .tc main_v29)
    = edgeNormWith (W (Proc.devRef .tc main_v14)) (W (Proc.devRef .tc main_v3)) (W (Proc.devRef .tc main_v6)) := by
  dsimp only [hostOps0_2]
  after_results_simp <;> rfl

theorem pre_norm : after (hostOps0_2 (F := Ideal)) (after hostOps0_1 (after hostOps0 W)) (Proc.devRef .tc main_v29)
    = edgeNorm (srcNodes (W (Proc.devRef .tc main_arg1))) (dstNodes (W (Proc.devRef .tc main_arg1))) := by
  refine (weights_out _).trans ?_
  rw [where_out, where_keep_v3, where_keep_v6, first_positive, first_rsqrt, first_zero, first_src, first_dst]
  rfl

theorem pre_wpre : after (hostOps0_2 (F := Ideal)) (after hostOps0_1 (after hostOps0 W)) (Proc.devRef .tc main_v31) = (W (Proc.devRef .tc main_arg2) : S256x128.Idx → EReal) := by
  dsimp only [hostOps0, hostOps0_1, hostOps0_2]
  after_results_simp <;> rfl

theorem pre_bpre : after (hostOps0_2 (F := Ideal)) (after hostOps0_1 (after hostOps0 W)) (Proc.devRef .tc main_v30) = row (W (Proc.devRef .tc main_arg3) : S128.Idx → EReal) := by
  refine Eq.trans ?_ (shapeCast_row (W (Proc.devRef .tc main_arg3) : S128.Idx → EReal) shapeCasts_S128_S1x128)
  dsimp only [hostOps0, hostOps0_1, hostOps0_2]
  after_results_simp <;> rfl

theorem pre_w1 : after (hostOps0_2 (F := Ideal)) (after hostOps0_1 (after hostOps0 W)) (Proc.devRef .tc main_v32) = (W (Proc.devRef .tc main_arg4) : S128x128.Idx → EReal) := by
  dsimp only [hostOps0, hostOps0_1, hostOps0_2]
  after_results_simp <;> rfl

theorem pre_keep_arg0 : after (hostOps0_2 (F := Ideal)) (after hostOps0_1 (after hostOps0 W)) (Proc.devRef .tc main_arg0) = W (Proc.devRef .tc main_arg0) := by
  dsimp only [hostOps0, hostOps0_1, hostOps0_2]
  after_results_simp
theorem pre_keep_arg5 : after (hostOps0_2 (F := Ideal)) (after hostOps0_1 (after hostOps0 W)) (Proc.devRef .tc main_arg5) = W (Proc.devRef .tc main_arg5) := by
  dsimp only [hostOps0, hostOps0_1, hostOps0_2]
  after_results_simp
theorem pre_keep_arg6 : after (hostOps0_2 (F := Ideal)) (after hostOps0_1 (after hostOps0 W)) (Proc.devRef .tc main_arg6) = W (Proc.devRef .tc main_arg6) := by
  dsimp only [hostOps0, hostOps0_1, hostOps0_2]
  after_results_simp
theorem pre_keep_arg7 : after (hostOps0_2 (F := Ideal)) (after hostOps0_1 (after hostOps0 W)) (Proc.devRef .tc main_arg7) = W (Proc.devRef .tc main_arg7) := by
  dsimp only [hostOps0, hostOps0_1, hostOps0_2]
  after_results_simp
theorem pre_keep_arg8 : after (hostOps0_2 (F := Ideal)) (after hostOps0_1 (after hostOps0 W)) (Proc.devRef .tc main_arg8) = W (Proc.devRef .tc main_arg8) := by
  dsimp only [hostOps0, hostOps0_1, hostOps0_2]
  after_results_simp
theorem pre_keep_arg9 : after (hostOps0_2 (F := Ideal)) (after hostOps0_1 (after hostOps0 W)) (Proc.devRef .tc main_arg9) = W (Proc.devRef .tc main_arg9) := by
  dsimp only [hostOps0, hostOps0_1, hostOps0_2]
  after_results_simp

set_option maxHeartbeats 4000000 in
theorem mid1_agg : after (hostOps1 (F := Ideal)) W (Proc.devRef .tc main_v47)
    = aggregateWith (W (Proc.devRef .tc main_v3)) (W (Proc.devRef .tc main_v6)) (W (Proc.devRef .tc main_v29))
        (W (Proc.devRef .tc main_v33) : S100000x128.Idx → EReal) := by
  dsimp only [hostOps1]
  after_results_simp <;> rfl

theorem mid1_bias : after (hostOps1 (F := Ideal)) W (Proc.devRef .tc main_v49) = row (W (Proc.devRef .tc main_arg5) : S128.Idx → EReal) := by
  refine Eq.trans ?_ (shapeCast_row (W (Proc.devRef .tc main_arg5) : S128.Idx → EReal) shapeCasts_S128_S1x128)
  dsimp only [hostOps1]
  after_results_simp <;> rfl

theorem mid1_weight : after (hostOps1 (F := Ideal)) W (Proc.devRef .tc main_v48) = (W (Proc.devRef .tc main_arg6) : S128x128.Idx → EReal) := by
  dsimp only [hostOps1]
  after_results_simp <;> rfl

theorem mid1_keep_v3 : after (hostOps1 (F := Ideal)) W (Proc.devRef .tc main_v3) = W (Proc.devRef .tc main_v3) := by
  dsimp only [hostOps1]
  after_results_simp
theorem mid1_keep_v6 : after (hostOps1 (F := Ideal)) W (Proc.devRef .tc main_v6) = W (Proc.devRef .tc main_v6) := by
  dsimp only [hostOps1]
  after_results_simp
theorem mid1_keep_v29 : after (hostOps1 (F := Ideal)) W (Proc.devRef .tc main_v29) = W (Proc.devRef .tc main_v29) := by
  dsimp only [hostOps1]
  after_results_simp
theorem mid1_keep_arg7 : after (hostOps1 (F := Ideal)) W (Proc.devRef .tc main_arg7) = W (Proc.devRef .tc main_arg7) := by
  dsimp only [hostOps1]
  after_results_simp
theorem mid1_keep_arg8 : after (hostOps1 (F := Ideal)) W (Proc.devRef .tc main_arg8) = W (Proc.devRef .tc main_arg8) := by
  dsimp only [hostOps1]
  after_results_simp
theorem mid1_keep_arg9 : after (hostOps1 (F := Ideal)) W (Proc.devRef .tc main_arg9) = W (Proc.devRef .tc main_arg9) := by
  dsimp only [hostOps1]
  after_results_simp

set_option maxHeartbeats 4000000 in
theorem mid2_agg : after (hostOps2 (F := Ideal)) W (Proc.devRef .tc main_v64)
    = aggregateWith (W (Proc.devRef .tc main_v3)) (W (Proc.devRef .tc main_v6)) (W (Proc.devRef .tc main_v29))
        (W (Proc.devRef .tc main_v50) : S100000x128.Idx → EReal) := by
  dsimp only [hostOps2]
  after_results_simp <;> rfl

theorem mid2_bias : after (hostOps2 (F := Ideal)) W (Proc.devRef .tc main_v66) = row (W (Proc.devRef .tc main_arg7) : S128.Idx → EReal) := by
  refine Eq.trans ?_ (shapeCast_row (W (Proc.devRef .tc main_arg7) : S128.Idx → EReal) shapeCasts_S128_S1x128)
  dsimp only [hostOps2]
  after_results_simp <;> rfl

theorem mid2_weight : after (hostOps2 (F := Ideal)) W (Proc.devRef .tc main_v65) = (W (Proc.devRef .tc main_arg8) : S128x40.Idx → EReal) := by
  dsimp only [hostOps2]
  after_results_simp <;> rfl

theorem mid2_outbias : after (hostOps2 (F := Ideal)) W (Proc.devRef .tc main_v67) = row (W (Proc.devRef .tc main_arg9) : S40.Idx → EReal) := by
  refine Eq.trans ?_ (shapeCast_row (W (Proc.devRef .tc main_arg9) : S40.Idx → EReal) shapeCasts_S40_S1x40)
  dsimp only [hostOps2]
  after_results_simp <;> rfl

end Stretches

/-! ## The boundaries, forwards -/

section Boundaries

variable (m : (ℓ : Loc nD τ sig) → Buf (Elt Ideal) ℓ) (ρ : Dev nD → PrngReg) (c : Dev nD)

/-- The edge list as launched. -/
abbrev edges : IVec S2x1600000 32 := m ((c.tc : Thread nD τ).loc main_arg1)

/-! ### At the first call's entry -/

theorem at3_x : W3 m ρ c (Proc.devRef .tc main_arg0) = (m ((c.tc : Thread nD τ).loc main_arg0)) := pre_keep_arg0 (W0 m ρ c)
theorem at3_wpre : W3 m ρ c (Proc.devRef .tc main_v31) = (m ((c.tc : Thread nD τ).loc main_arg2)) := pre_wpre (W0 m ρ c)
theorem at3_bpre : W3 m ρ c (Proc.devRef .tc main_v30) = row (m ((c.tc : Thread nD τ).loc main_arg3)) := pre_bpre (W0 m ρ c)
theorem at3_w1 : W3 m ρ c (Proc.devRef .tc main_v32) = (m ((c.tc : Thread nD τ).loc main_arg4)) := pre_w1 (W0 m ρ c)
theorem at3_src : W3 m ρ c (Proc.devRef .tc main_v3) = srcNodes (edges m c) := pre_src (W0 m ρ c)
theorem at3_dst : W3 m ρ c (Proc.devRef .tc main_v6) = dstNodes (edges m c) := pre_dst (W0 m ρ c)
theorem at3_norm : W3 m ρ c (Proc.devRef .tc main_v29) = edgeNorm (srcNodes (edges m c)) (dstNodes (edges m c)) := pre_norm (W0 m ρ c)
theorem at3_arg5 : W3 m ρ c (Proc.devRef .tc main_arg5) = (m ((c.tc : Thread nD τ).loc main_arg5)) := pre_keep_arg5 (W0 m ρ c)
theorem at3_arg6 : W3 m ρ c (Proc.devRef .tc main_arg6) = (m ((c.tc : Thread nD τ).loc main_arg6)) := pre_keep_arg6 (W0 m ρ c)
theorem at3_arg7 : W3 m ρ c (Proc.devRef .tc main_arg7) = (m ((c.tc : Thread nD τ).loc main_arg7)) := pre_keep_arg7 (W0 m ρ c)
theorem at3_arg8 : W3 m ρ c (Proc.devRef .tc main_arg8) = (m ((c.tc : Thread nD τ).loc main_arg8)) := pre_keep_arg8 (W0 m ρ c)
theorem at3_arg9 : W3 m ρ c (Proc.devRef .tc main_arg9) = (m ((c.tc : Thread nD τ).loc main_arg9)) := pre_keep_arg9 (W0 m ρ c)

/-! ### After the first call: its result array holds `(x · W_pre + b_pre) · W₁`, the rest is as it was -/

theorem at4_h1 : W4 m ρ c (Proc.devRef .tc main_v33) = (affineLinear (m ((c.tc : Thread nD τ).loc main_arg0)) (m ((c.tc : Thread nD τ).loc main_arg2)) (row (m ((c.tc : Thread nD τ).loc main_arg3))) (m ((c.tc : Thread nD τ).loc main_arg4))) := by
  refine ((W4_arr m ρ c 4).trans (Region0.final (V3 m ρ) c)).trans ?_
  show affineLinear (W3 m ρ c (Proc.devRef .tc main_arg0)) (W3 m ρ c (Proc.devRef .tc main_v31))
    (W3 m ρ c (Proc.devRef .tc main_v30)) (W3 m ρ c (Proc.devRef .tc main_v32)) = _
  rw [at3_x, at3_wpre, at3_bpre, at3_w1]
theorem at4_src : W4 m ρ c (Proc.devRef .tc main_v3) = srcNodes (edges m c) := (W4_of_ne m ρ c main_v3 (by decide)).trans (at3_src m ρ c)
theorem at4_dst : W4 m ρ c (Proc.devRef .tc main_v6) = dstNodes (edges m c) := (W4_of_ne m ρ c main_v6 (by decide)).trans (at3_dst m ρ c)
theorem at4_norm : W4 m ρ c (Proc.devRef .tc main_v29) = edgeNorm (srcNodes (edges m c)) (dstNodes (edges m c)) :=
  (W4_of_ne m ρ c main_v29 (by decide)).trans (at3_norm m ρ c)
theorem at4_arg5 : W4 m ρ c (Proc.devRef .tc main_arg5) = (m ((c.tc : Thread nD τ).loc main_arg5)) := (W4_of_ne m ρ c main_arg5 (by decide)).trans (at3_arg5 m ρ c)
theorem at4_arg6 : W4 m ρ c (Proc.devRef .tc main_arg6) = (m ((c.tc : Thread nD τ).loc main_arg6)) := (W4_of_ne m ρ c main_arg6 (by decide)).trans (at3_arg6 m ρ c)
theorem at4_arg7 : W4 m ρ c (Proc.devRef .tc main_arg7) = (m ((c.tc : Thread nD τ).loc main_arg7)) := (W4_of_ne m ρ c main_arg7 (by decide)).trans (at3_arg7 m ρ c)
theorem at4_arg8 : W4 m ρ c (Proc.devRef .tc main_arg8) = (m ((c.tc : Thread nD τ).loc main_arg8)) := (W4_of_ne m ρ c main_arg8 (by decide)).trans (at3_arg8 m ρ c)
theorem at4_arg9 : W4 m ρ c (Proc.devRef .tc main_arg9) = (m ((c.tc : Thread nD τ).loc main_arg9)) := (W4_of_ne m ρ c main_arg9 (by decide)).trans (at3_arg9 m ρ c)

/-! ### At the second call's entry: the aggregation of the first layer, the bias row, the weight array -/

theorem at5_agg : W5 m ρ c (Proc.devRef .tc main_v47) = (aggregate (edges m c) (affineLinear (m ((c.tc : Thread nD τ).loc main_arg0)) (m ((c.tc : Thread nD τ).loc main_arg2)) (row (m ((c.tc : Thread nD τ).loc main_arg3))) (m ((c.tc : Thread nD τ).loc main_arg4)))) := by
  refine (mid1_agg (W4 m ρ c)).trans ?_
  rw [at4_src, at4_dst, at4_norm, at4_h1]
  rfl
theorem at5_bias : W5 m ρ c (Proc.devRef .tc main_v49) = row (m ((c.tc : Thread nD τ).loc main_arg5)) := (mid1_bias (W4 m ρ c)).trans (by rw [at4_arg5])
theorem at5_weight : W5 m ρ c (Proc.devRef .tc main_v48) = (m ((c.tc : Thread nD τ).loc main_arg6)) := (mid1_weight (W4 m ρ c)).trans (at4_arg6 m ρ c)
theorem at5_src : W5 m ρ c (Proc.devRef .tc main_v3) = srcNodes (edges m c) := (mid1_keep_v3 (W4 m ρ c)).trans (at4_src m ρ c)
theorem at5_dst : W5 m ρ c (Proc.devRef .tc main_v6) = dstNodes (edges m c) := (mid1_keep_v6 (W4 m ρ c)).trans (at4_dst m ρ c)
theorem at5_norm : W5 m ρ c (Proc.devRef .tc main_v29) = edgeNorm (srcNodes (edges m c)) (dstNodes (edges m c)) :=
  (mid1_keep_v29 (W4 m ρ c)).trans (at4_norm m ρ c)
theorem at5_arg7 : W5 m ρ c (Proc.devRef .tc main_arg7) = (m ((c.tc : Thread nD τ).loc main_arg7)) := (mid1_keep_arg7 (W4 m ρ c)).trans (at4_arg7 m ρ c)
theorem at5_arg8 : W5 m ρ c (Proc.devRef .tc main_arg8) = (m ((c.tc : Thread nD τ).loc main_arg8)) := (mid1_keep_arg8 (W4 m ρ c)).trans (at4_arg8 m ρ c)
theorem at5_arg9 : W5 m ρ c (Proc.devRef .tc main_arg9) = (m ((c.tc : Thread nD τ).loc main_arg9)) := (mid1_keep_arg9 (W4 m ρ c)).trans (at4_arg9 m ρ c)

/-! ### After the second call: its result array holds `max (Â H₁ + b₁) 0 · W₂` -/

theorem at6_h2 : W6 m ρ c (Proc.devRef .tc main_v50) = (reluLinear (aggregate (edges m c) (affineLinear (m ((c.tc : Thread nD τ).loc main_arg0)) (m ((c.tc : Thread nD τ).loc main_arg2)) (row (m ((c.tc : Thread nD τ).loc main_arg3))) (m ((c.tc : Thread nD τ).loc main_arg4)))) (row (m ((c.tc : Thread nD τ).loc main_arg5))) (m ((c.tc : Thread nD τ).loc main_arg6))) := by
  refine ((W6_arr m ρ c 3).trans (Region1.final (V5 m ρ) c)).trans ?_
  show reluLinear (W5 m ρ c (Proc.devRef .tc main_v47)) (W5 m ρ c (Proc.devRef .tc main_v49)) (W5 m ρ c (Proc.devRef .tc main_v48)) = _
  rw [at5_agg, at5_bias, at5_weight]
theorem at6_src : W6 m ρ c (Proc.devRef .tc main_v3) = srcNodes (edges m c) := (W6_of_ne m ρ c main_v3 (by decide)).trans (at5_src m ρ c)
theorem at6_dst : W6 m ρ c (Proc.devRef .tc main_v6) = dstNodes (edges m c) := (W6_of_ne m ρ c main_v6 (by decide)).trans (at5_dst m ρ c)
theorem at6_norm : W6 m ρ c (Proc.devRef .tc main_v29) = edgeNorm (srcNodes (edges m c)) (dstNodes (edges m c)) :=
  (W6_of_ne m ρ c main_v29 (by decide)).trans (at5_norm m ρ c)
theorem at6_arg7 : W6 m ρ c (Proc.devRef .tc main_arg7) = (m ((c.tc : Thread nD τ).loc main_arg7)) := (W6_of_ne m ρ c main_arg7 (by decide)).trans (at5_arg7 m ρ c)
theorem at6_arg8 : W6 m ρ c (Proc.devRef .tc main_arg8) = (m ((c.tc : Thread nD τ).loc main_arg8)) := (W6_of_ne m ρ c main_arg8 (by decide)).trans (at5_arg8 m ρ c)
theorem at6_arg9 : W6 m ρ c (Proc.devRef .tc main_arg9) = (m ((c.tc : Thread nD τ).loc main_arg9)) := (W6_of_ne m ρ c main_arg9 (by decide)).trans (at5_arg9 m ρ c)

/-! ### At the third call's entry -/

theorem at7_agg : W7 m ρ c (Proc.devRef .tc main_v64) = (aggregate (edges m c) (reluLinear (aggregate (edges m c) (affineLinear (m ((c.tc : Thread nD τ).loc main_arg0)) (m ((c.tc : Thread nD τ).loc main_arg2)) (row (m ((c.tc : Thread nD τ).loc main_arg3))) (m ((c.tc : Thread nD τ).loc main_arg4)))) (row (m ((c.tc : Thread nD τ).loc main_arg5))) (m ((c.tc : Thread nD τ).loc main_arg6)))) := by
  refine (mid2_agg (W6 m ρ c)).trans ?_
  rw [at6_src, at6_dst, at6_norm, at6_h2]
  rfl
theorem at7_bias : W7 m ρ c (Proc.devRef .tc main_v66) = row (m ((c.tc : Thread nD τ).loc main_arg7)) := (mid2_bias (W6 m ρ c)).trans (by rw [at6_arg7])
theorem at7_weight : W7 m ρ c (Proc.devRef .tc main_v65) = (m ((c.tc : Thread nD τ).loc main_arg8)) := (mid2_weight (W6 m ρ c)).trans (at6_arg8 m ρ c)
theorem at7_outbias : W7 m ρ c (Proc.devRef .tc main_v67) = row (m ((c.tc : Thread nD τ).loc main_arg9)) := (mid2_outbias (W6 m ρ c)).trans (by rw [at6_arg9])

/-- THE RESULT: after the third call the result array holds the network of the ten arguments. -/
theorem value : W8 m ρ c (Proc.devRef .tc main_v68)
    = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine ((W8_arr m ρ c 4).trans (Region2.final (V7 m ρ) c)).trans ?_
  show logSoftmaxRows (reluAffine (W7 m ρ c (Proc.devRef .tc main_v64)) (W7 m ρ c (Proc.devRef .tc main_v66))
    (W7 m ρ c (Proc.devRef .tc main_v65)) (W7 m ρ c (Proc.devRef .tc main_v67))) = _
  rw [at7_agg, at7_bias, at7_weight, at7_outbias]
  rfl

end Boundaries

end Cert.KernelIdeal.Walk

end
-- ==== Proof.RefLine.lean ====
/-
  The reference program as a straight line of host operations, and its run.

  The reference has no kernel: its @main is 109 host operations in a row (a called function's operations standing in its
  call's place). Every weakly fair execution terminates with every buffer at the fold of the operations over the launch
  memory. The line is cut into four stretches — the graph quantities (endpoints, degrees, edge weights); the first dense
  layer and its aggregation; the second dense layer and its aggregation; the last dense layer and the logarithm of the row
  softmax — so that what a buffer holds after the line is read one stretch at a time.
-/
import proofs.«135698_j83657372991833_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The graph quantities: source and target node of every edge with the self loops, the degrees, their inverse square
    roots (zero where a degree is not positive), the edge weights. -/
abbrev opsGraph : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]

/-- `(x · W_pre + b_pre) · W₁`, then its aggregation along the edges. -/
abbrev opsConv1 : List (HloOp τ sig (Elt F)) :=
  [ binary main_arg0 main_arg2 main_v30 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg3 main_v31 (broadcastInDim S1x128 ![1] bcast_S128_S1x128_1 : (⟨S128, .f32⟩ : BufTy).Contents (Elt F) → (⟨S1x128, .f32⟩ : BufTy).Contents (Elt F)),
    unary main_v31 main_v32 (broadcastInDim S100000x128 ![0, 1] bcast_S1x128_S100000x128_0_1 : (⟨S1x128, .f32⟩ : BufTy).Contents (Elt F) → (⟨S100000x128, .f32⟩ : BufTy).Contents (Elt F)),
    binary main_v30 main_v32 main_v33 (addf : (⟨S100000x128, .f32⟩ : BufTy).Contents (Elt F) → (⟨S100000x128, .f32⟩ : BufTy).Contents (Elt F) → (⟨S100000x128, .f32⟩ : BufTy).Contents (Elt F)),
    binary main_v33 main_arg4 main_v34 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_6 (constantI S_ 32 0#32),
    unary main_c_6 main_v35 (broadcastInDim S1700000 ![] bcast_S_S1700000 : (⟨S_, .i32⟩ : BufTy).Contents (Elt F) → (⟨S1700000, .i32⟩ : BufTy).Contents (Elt F)),
    binary main_v3 main_v35 main_v36 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v37 (broadcastInDim S1700000 ![] bcast_S_S1700000 : (⟨S_, .i32⟩ : BufTy).Contents (Elt F) → (⟨S1700000, .i32⟩ : BufTy).Contents (Elt F)),
    binary main_v3 main_v37 main_v38 (addi : (⟨S1700000, .i32⟩ : BufTy).Contents (Elt F) → (⟨S1700000, .i32⟩ : BufTy).Contents (Elt F) → (⟨S1700000, .i32⟩ : BufTy).Contents (Elt F)),
    ternary main_v36 main_v38 main_v3 main_v39 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v39 main_v40 (broadcastInDim S1700000x1 ![0] bcast_S1700000_S1700000x1_0 : (⟨S1700000, .i32⟩ : BufTy).Contents (Elt F) → (⟨S1700000x1, .i32⟩ : BufTy).Contents (Elt F)),
    binary main_v34 main_v40 main_v41 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v42 (broadcastInDim S1700000x1 ![0] bcast_S1700000_S1700000x1_0 : (⟨S1700000, .f32⟩ : BufTy).Contents (Elt F) → (⟨S1700000x1, .f32⟩ : BufTy).Contents (Elt F)),
    unary main_v42 main_v43 (broadcastInDim S1700000x128 ![0, 1] bcast_S1700000x1_S1700000x128_0_1 : (⟨S1700000x1, .f32⟩ : BufTy).Contents (Elt F) → (⟨S1700000x128, .f32⟩ : BufTy).Contents (Elt F)),
    binary main_v41 main_v43 main_v44 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v45 (broadcastInDim S100000x128 ![] bcast_S_S100000x128 : (⟨S_, .f32⟩ : BufTy).Contents (Elt F) → (⟨S100000x128, .f32⟩ : BufTy).Contents (Elt F)),
    unary main_v6 main_v46 (broadcastInDim S1700000x1 ![0] bcast_S1700000_S1700000x1_0 : (⟨S1700000, .i32⟩ : BufTy).Contents (Elt F) → (⟨S1700000x1, .i32⟩ : BufTy).Contents (Elt F)),
    ternary main_v45 main_v46 main_v44 main_v47 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- `max (· + b₁) 0 · W₂`, then its aggregation along the edges. -/
abbrev opsConv2 : List (HloOp τ sig (Elt F)) :=
  [ unary main_arg5 main_v48 (broadcastInDim S1x128 ![1] bcast_S128_S1x128_1 : (⟨S128, .f32⟩ : BufTy).Contents (Elt F) → (⟨S1x128, .f32⟩ : BufTy).Contents (Elt F)),
    unary main_v48 main_v49 (broadcastInDim S100000x128 ![0, 1] bcast_S1x128_S100000x128_0_1 : (⟨S1x128, .f32⟩ : BufTy).Contents (Elt F) → (⟨S100000x128, .f32⟩ : BufTy).Contents (Elt F)),
    binary main_v47 main_v49 main_v50 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v50) (TRef.of (T := ⟨S100000x128, .f32⟩) main_call1_v0) (TRef.of (T := ⟨S100000x128, .f32⟩) main_v51) maximumf,
    binary main_v51 main_arg6 main_v52 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_9 (constantI S_ 32 0#32),
    unary main_c_9 main_v53 (broadcastInDim S1700000 ![] bcast_S_S1700000 : (⟨S_, .i32⟩ : BufTy).Contents (Elt F) → (⟨S1700000, .i32⟩ : BufTy).Contents (Elt F)),
    binary main_v3 main_v53 main_v54 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v55 (broadcastInDim S1700000 ![] bcast_S_S1700000 : (⟨S_, .i32⟩ : BufTy).Contents (Elt F) → (⟨S1700000, .i32⟩ : BufTy).Contents (Elt F)),
    binary main_v3 main_v55 main_v56 (addi : (⟨S1700000, .i32⟩ : BufTy).Contents (Elt F) → (⟨S1700000, .i32⟩ : BufTy).Contents (Elt F) → (⟨S1700000, .i32⟩ : BufTy).Contents (Elt F)),
    ternary main_v54 main_v56 main_v3 main_v57 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v57 main_v58 (broadcastInDim S1700000x1 ![0] bcast_S1700000_S1700000x1_0 : (⟨S1700000, .i32⟩ : BufTy).Contents (Elt F) → (⟨S1700000x1, .i32⟩ : BufTy).Contents (Elt F)),
    binary main_v52 main_v58 main_v59 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v60 (broadcastInDim S1700000x1 ![0] bcast_S1700000_S1700000x1_0 : (⟨S1700000, .f32⟩ : BufTy).Contents (Elt F) → (⟨S1700000x1, .f32⟩ : BufTy).Contents (Elt F)),
    unary main_v60 main_v61 (broadcastInDim S1700000x128 ![0, 1] bcast_S1700000x1_S1700000x128_0_1 : (⟨S1700000x1, .f32⟩ : BufTy).Contents (Elt F) → (⟨S1700000x128, .f32⟩ : BufTy).Contents (Elt F)),
    binary main_v59 main_v61 main_v62 (mulf : (⟨S1700000x128, .f32⟩ : BufTy).Contents (Elt F) → (⟨S1700000x128, .f32⟩ : BufTy).Contents (Elt F) → (⟨S1700000x128, .f32⟩ : BufTy).Contents (Elt F)),
    nullary main_cst_11 (constant S_ .f32 0x00000000#32),
    unary main_cst_11 main_v63 (broadcastInDim S100000x128 ![] bcast_S_S100000x128 : (⟨S_, .f32⟩ : BufTy).Contents (Elt F) → (⟨S100000x128, .f32⟩ : BufTy).Contents (Elt F)),
    unary main_v6 main_v64 (broadcastInDim S1700000x1 ![0] bcast_S1700000_S1700000x1_0 : (⟨S1700000, .i32⟩ : BufTy).Contents (Elt F) → (⟨S1700000x1, .i32⟩ : BufTy).Contents (Elt F)),
    ternary main_v63 main_v64 main_v62 main_v65 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- `max (· + b₂) 0 · W_post + b_post`, then the logarithm of the row softmax. -/
abbrev opsHead : List (HloOp τ sig (Elt F)) :=
  [ unary main_arg7 main_v66 (broadcastInDim S1x128 ![1] bcast_S128_S1x128_1 : (⟨S128, .f32⟩ : BufTy).Contents (Elt F) → (⟨S1x128, .f32⟩ : BufTy).Contents (Elt F)),
    unary main_v66 main_v67 (broadcastInDim S100000x128 ![0, 1] bcast_S1x128_S100000x128_0_1 : (⟨S1x128, .f32⟩ : BufTy).Contents (Elt F) → (⟨S100000x128, .f32⟩ : BufTy).Contents (Elt F)),
    binary main_v65 main_v67 main_v68 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v68) (TRef.of (T := ⟨S100000x128, .f32⟩) main_call2_v0) (TRef.of (T := ⟨S100000x128, .f32⟩) main_v69) maximumf,
    binary main_v69 main_arg8 main_v70 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    unary main_arg9 main_v71 (broadcastInDim S1x40 ![1] bcast_S40_S1x40_1 : (⟨S40, .f32⟩ : BufTy).Contents (Elt F) → (⟨S1x40, .f32⟩ : BufTy).Contents (Elt F)),
    unary main_v71 main_v72 (broadcastInDim S100000x40 ![0, 1] bcast_S1x40_S100000x40_0_1 : (⟨S1x40, .f32⟩ : BufTy).Contents (Elt F) → (⟨S100000x40, .f32⟩ : BufTy).Contents (Elt F)),
    binary main_v70 main_v72 main_v73 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call3_cst) (constant S_ .f32 0xFF800000#32),
    TRef.binary (TRef.of (T := ⟨S100000x40, .f32⟩) main_v73) (TRef.of (T := ⟨S_, .f32⟩) main_call3_cst) (TRef.of (T := ⟨S100000, .f32⟩) main_call3_v0) (fun x v => Host.reduce FloatOps.maximumf x v reducesTo_S100000x40_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v73) (TRef.of (T := ⟨S100000x40, .f32⟩) main_call3_v4) (TRef.of (T := ⟨S100000x40, .f32⟩) main_call3_v5) subf,
    TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v74) subf ]

/-- @main's 109 operations, in order. -/
abbrev ops : List (HloOp τ sig (Elt F)) := opsGraph ++ (opsConv1 ++ (opsConv2 ++ opsHead))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem opsGraph_sub : (opsGraph : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem opsConv1_sub : (opsConv1 : List (HloOp τ sig (Elt F))).Forall fun op => op.bufs ⊆ tcRefs τ sig :=
  ⟨binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem opsConv2_sub : (opsConv2 : List (HloOp τ sig (Elt F))).Forall fun op => op.bufs ⊆ tcRefs τ sig :=
  ⟨unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem opsHead_sub : (opsHead : List (HloOp τ sig (Elt F))).Forall fun op => op.bufs ⊆ tcRefs τ sig :=
  ⟨unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => by
    rcases List.mem_append.mp h with h | h
    · exact List.forall_iff_forall_mem.mp opsGraph_sub op h
    rcases List.mem_append.mp h with h | h
    · exact List.forall_iff_forall_mem.mp opsConv1_sub op h
    rcases List.mem_append.mp h with h | h
    · exact List.forall_iff_forall_mem.mp opsConv2_sub op h
    · exact List.forall_iff_forall_mem.mp opsHead_sub op h

theorem opsGraph_fresh : ∀ op ∈ (opsGraph : List (HloOp τ sig (Elt F))), op.fresh = ∅ := by
  intro _ h; (repeat (cases h with | head => rfl | tail _ h => ?_)); exact nomatch h
theorem opsConv1_fresh : ∀ op ∈ (opsConv1 : List (HloOp τ sig (Elt F))), op.fresh = ∅ := by
  intro _ h; (repeat (cases h with | head => rfl | tail _ h => ?_)); exact nomatch h
theorem opsConv2_fresh : ∀ op ∈ (opsConv2 : List (HloOp τ sig (Elt F))), op.fresh = ∅ := by
  intro _ h; (repeat (cases h with | head => rfl | tail _ h => ?_)); exact nomatch h
theorem opsHead_fresh : ∀ op ∈ (opsHead : List (HloOp τ sig (Elt F))), op.fresh = ∅ := by
  intro _ h; (repeat (cases h with | head => rfl | tail _ h => ?_)); exact nomatch h

/-- No operation of the line allocates a buffer. -/
theorem ops_fresh : ∀ op ∈ (ops : List (HloOp τ sig (Elt F))), op.fresh = ∅ := fun op h => by
  rcases List.mem_append.mp h with h | h
  · exact opsGraph_fresh op h
  rcases List.mem_append.mp h with h | h
  · exact opsConv1_fresh op h
  rcases List.mem_append.mp h with h | h
  · exact opsConv2_fresh op h
  · exact opsHead_fresh op h

/-- The contents after a line followed by another line are the second line's contents from the first line's: a fold over a
    list cut in two. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- The contents after the whole line, one stretch at a time. -/
theorem after_ops (V : Valuation τ sig (Elt F)) :
    after ops V = after opsHead (after opsConv2 (after opsConv1 (after opsGraph V))) := by
  unfold ops
  rw [after_append, after_append, after_append]

set_option maxRecDepth 8192 in
set_option maxHeartbeats 4000000 in
/-- Every weakly fair execution of the reference terminates, and every buffer of every core ends at the fold of the four
    stretches over the launch memory. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b)
        = after opsHead (after opsConv2 (after opsConv1 (after opsGraph (launchContents m c)))) (Proc.devRef .tc b) :=
  (θ_run defs _ _).mono (fun _ h c b => (h c b).trans (congrFun (after_ops (launchContents m c)) _))
    (run_seq scopedRefs_eq scopedSems_eq defs main (fun _ => ops) main_eq (fun _ => ops_sub) m ρ (fun _ => ops_fresh))

end Cert.ReferenceIdeal.Line

end
-- ==== Proof.RefArgs.lean ====
/-
  The reference never writes an argument: no operation of its line has an argument buffer as its result, so after each
  stretch, and after the whole line, every argument holds what it held at launch.
-/
import proofs.«135698_j83657372991833_2_alg».proof.Proof.RefLine
import Idealize.ShloMosaic.PureOps.Ideal

noncomputable section

namespace Cert.ReferenceIdeal.RefValue

open Cert.ReferenceIdeal Cert.ReferenceIdeal.Gen Cert.ReferenceIdeal.Line
open Idealize.ShloMosaic Idealize.ShloMosaic.TcCoe Idealize.SL.Sem Idealize.ShloMosaic.StableHlo

variable {F : FTy → Type} [FloatOps F] (W : Valuation τ sig (Elt F))

theorem graph_keep_arg0 : after (opsGraph (F := F)) W (Proc.devRef .tc main_arg0) = W (Proc.devRef .tc main_arg0) := by
  dsimp only [opsGraph]
  after_results_simp
theorem graph_keep_arg1 : after (opsGraph (F := F)) W (Proc.devRef .tc main_arg1) = W (Proc.devRef .tc main_arg1) := by
  dsimp only [opsGraph]
  after_results_simp
theorem graph_keep_arg2 : after (opsGraph (F := F)) W (Proc.devRef .tc main_arg2) = W (Proc.devRef .tc main_arg2) := by
  dsimp only [opsGraph]
  after_results_simp
theorem graph_keep_arg3 : after (opsGraph (F := F)) W (Proc.devRef .tc main_arg3) = W (Proc.devRef .tc main_arg3) := by
  dsimp only [opsGraph]
  after_results_simp
theorem graph_keep_arg4 : after (opsGraph (F := F)) W (Proc.devRef .tc main_arg4) = W (Proc.devRef .tc main_arg4) := by
  dsimp only [opsGraph]
  after_results_simp
theorem graph_keep_arg5 : after (opsGraph (F := F)) W (Proc.devRef .tc main_arg5) = W (Proc.devRef .tc main_arg5) := by
  dsimp only [opsGraph]
  after_results_simp
theorem graph_keep_arg6 : after (opsGraph (F := F)) W (Proc.devRef .tc main_arg6) = W (Proc.devRef .tc main_arg6) := by
  dsimp only [opsGraph]
  after_results_simp
theorem graph_keep_arg7 : after (opsGraph (F := F)) W (Proc.devRef .tc main_arg7) = W (Proc.devRef .tc main_arg7) := by
  dsimp only [opsGraph]
  after_results_simp
theorem graph_keep_arg8 : after (opsGraph (F := F)) W (Proc.devRef .tc main_arg8) = W (Proc.devRef .tc main_arg8) := by
  dsimp only [opsGraph]
  after_results_simp
theorem graph_keep_arg9 : after (opsGraph (F := F)) W (Proc.devRef .tc main_arg9) = W (Proc.devRef .tc main_arg9) := by
  dsimp only [opsGraph]
  after_results_simp

theorem conv1_keep_arg0 : after (opsConv1 (F := F)) W (Proc.devRef .tc main_arg0) = W (Proc.devRef .tc main_arg0) := by
  dsimp only [opsConv1]
  after_results_simp
theorem conv1_keep_arg1 : after (opsConv1 (F := F)) W (Proc.devRef .tc main_arg1) = W (Proc.devRef .tc main_arg1) := by
  dsimp only [opsConv1]
  after_results_simp
theorem conv1_keep_arg2 : after (opsConv1 (F := F)) W (Proc.devRef .tc main_arg2) = W (Proc.devRef .tc main_arg2) := by
  dsimp only [opsConv1]
  after_results_simp
theorem conv1_keep_arg3 : after (opsConv1 (F := F)) W (Proc.devRef .tc main_arg3) = W (Proc.devRef .tc main_arg3) := by
  dsimp only [opsConv1]
  after_results_simp
theorem conv1_keep_arg4 : after (opsConv1 (F := F)) W (Proc.devRef .tc main_arg4) = W (Proc.devRef .tc main_arg4) := by
  dsimp only [opsConv1]
  after_results_simp
theorem conv1_keep_arg5 : after (opsConv1 (F := F)) W (Proc.devRef .tc main_arg5) = W (Proc.devRef .tc main_arg5) := by
  dsimp only [opsConv1]
  after_results_simp
theorem conv1_keep_arg6 : after (opsConv1 (F := F)) W (Proc.devRef .tc main_arg6) = W (Proc.devRef .tc main_arg6) := by
  dsimp only [opsConv1]
  after_results_simp
theorem conv1_keep_arg7 : after (opsConv1 (F := F)) W (Proc.devRef .tc main_arg7) = W (Proc.devRef .tc main_arg7) := by
  dsimp only [opsConv1]
  after_results_simp
theorem conv1_keep_arg8 : after (opsConv1 (F := F)) W (Proc.devRef .tc main_arg8) = W (Proc.devRef .tc main_arg8) := by
  dsimp only [opsConv1]
  after_results_simp
theorem conv1_keep_arg9 : after (opsConv1 (F := F)) W (Proc.devRef .tc main_arg9) = W (Proc.devRef .tc main_arg9) := by
  dsimp only [opsConv1]
  after_results_simp

theorem conv2_keep_arg0 : after (opsConv2 (F := F)) W (Proc.devRef .tc main_arg0) = W (Proc.devRef .tc main_arg0) := by
  dsimp only [opsConv2]
  after_results_simp
theorem conv2_keep_arg1 : after (opsConv2 (F := F)) W (Proc.devRef .tc main_arg1) = W (Proc.devRef .tc main_arg1) := by
  dsimp only [opsConv2]
  after_results_simp
theorem conv2_keep_arg2 : after (opsConv2 (F := F)) W (Proc.devRef .tc main_arg2) = W (Proc.devRef .tc main_arg2) := by
  dsimp only [opsConv2]
  after_results_simp
theorem conv2_keep_arg3 : after (opsConv2 (F := F)) W (Proc.devRef .tc main_arg3) = W (Proc.devRef .tc main_arg3) := by
  dsimp only [opsConv2]
  after_results_simp
theorem conv2_keep_arg4 : after (opsConv2 (F := F)) W (Proc.devRef .tc main_arg4) = W (Proc.devRef .tc main_arg4) := by
  dsimp only [opsConv2]
  after_results_simp
theorem conv2_keep_arg5 : after (opsConv2 (F := F)) W (Proc.devRef .tc main_arg5) = W (Proc.devRef .tc main_arg5) := by
  dsimp only [opsConv2]
  after_results_simp
theorem conv2_keep_arg6 : after (opsConv2 (F := F)) W (Proc.devRef .tc main_arg6) = W (Proc.devRef .tc main_arg6) := by
  dsimp only [opsConv2]
  after_results_simp
theorem conv2_keep_arg7 : after (opsConv2 (F := F)) W (Proc.devRef .tc main_arg7) = W (Proc.devRef .tc main_arg7) := by
  dsimp only [opsConv2]
  after_results_simp
theorem conv2_keep_arg8 : after (opsConv2 (F := F)) W (Proc.devRef .tc main_arg8) = W (Proc.devRef .tc main_arg8) := by
  dsimp only [opsConv2]
  after_results_simp
theorem conv2_keep_arg9 : after (opsConv2 (F := F)) W (Proc.devRef .tc main_arg9) = W (Proc.devRef .tc main_arg9) := by
  dsimp only [opsConv2]
  after_results_simp

theorem head_keep_arg0 : after (opsHead (F := F)) W (Proc.devRef .tc main_arg0) = W (Proc.devRef .tc main_arg0) := by
  dsimp only [opsHead]
  after_results_simp
theorem head_keep_arg1 : after (opsHead (F := F)) W (Proc.devRef .tc main_arg1) = W (Proc.devRef .tc main_arg1) := by
  dsimp only [opsHead]
  after_results_simp
theorem head_keep_arg2 : after (opsHead (F := F)) W (Proc.devRef .tc main_arg2) = W (Proc.devRef .tc main_arg2) := by
  dsimp only [opsHead]
  after_results_simp
theorem head_keep_arg3 : after (opsHead (F := F)) W (Proc.devRef .tc main_arg3) = W (Proc.devRef .tc main_arg3) := by
  dsimp only [opsHead]
  after_results_simp
theorem head_keep_arg4 : after (opsHead (F := F)) W (Proc.devRef .tc main_arg4) = W (Proc.devRef .tc main_arg4) := by
  dsimp only [opsHead]
  after_results_simp
theorem head_keep_arg5 : after (opsHead (F := F)) W (Proc.devRef .tc main_arg5) = W (Proc.devRef .tc main_arg5) := by
  dsimp only [opsHead]
  after_results_simp
theorem head_keep_arg6 : after (opsHead (F := F)) W (Proc.devRef .tc main_arg6) = W (Proc.devRef .tc main_arg6) := by
  dsimp only [opsHead]
  after_results_simp
theorem head_keep_arg7 : after (opsHead (F := F)) W (Proc.devRef .tc main_arg7) = W (Proc.devRef .tc main_arg7) := by
  dsimp only [opsHead]
  after_results_simp
theorem head_keep_arg8 : after (opsHead (F := F)) W (Proc.devRef .tc main_arg8) = W (Proc.devRef .tc main_arg8) := by
  dsimp only [opsHead]
  after_results_simp
theorem head_keep_arg9 : after (opsHead (F := F)) W (Proc.devRef .tc main_arg9) = W (Proc.devRef .tc main_arg9) := by
  dsimp only [opsHead]
  after_results_simp

/-- After the whole line an argument holds its launch contents. -/
theorem line_keeps (m : (ℓ : Loc nD τ sig) → Buf (Elt F) ℓ) (c : Dev nD) :
    after (opsHead (F := F)) (after opsConv2 (after opsConv1 (after opsGraph (launchContents m c)))) (Proc.devRef .tc main_arg0) = m ((c.tc : Thread nD τ).loc main_arg0)
    ∧     after (opsHead (F := F)) (after opsConv2 (after opsConv1 (after opsGraph (launchContents m c)))) (Proc.devRef .tc main_arg1) = m ((c.tc : Thread nD τ).loc main_arg1)
    ∧     after (opsHead (F := F)) (after opsConv2 (after opsConv1 (after opsGraph (launchContents m c)))) (Proc.devRef .tc main_arg2) = m ((c.tc : Thread nD τ).loc main_arg2)
    ∧     after (opsHead (F := F)) (after opsConv2 (after opsConv1 (after opsGraph (launchContents m c)))) (Proc.devRef .tc main_arg3) = m ((c.tc : Thread nD τ).loc main_arg3)
    ∧     after (opsHead (F := F)) (after opsConv2 (after opsConv1 (after opsGraph (launchContents m c)))) (Proc.devRef .tc main_arg4) = m ((c.tc : Thread nD τ).loc main_arg4)
    ∧     after (opsHead (F := F)) (after opsConv2 (after opsConv1 (after opsGraph (launchContents m c)))) (Proc.devRef .tc main_arg5) = m ((c.tc : Thread nD τ).loc main_arg5)
    ∧     after (opsHead (F := F)) (after opsConv2 (after opsConv1 (after opsGraph (launchContents m c)))) (Proc.devRef .tc main_arg6) = m ((c.tc : Thread nD τ).loc main_arg6)
    ∧     after (opsHead (F := F)) (after opsConv2 (after opsConv1 (after opsGraph (launchContents m c)))) (Proc.devRef .tc main_arg7) = m ((c.tc : Thread nD τ).loc main_arg7)
    ∧     after (opsHead (F := F)) (after opsConv2 (after opsConv1 (after opsGraph (launchContents m c)))) (Proc.devRef .tc main_arg8) = m ((c.tc : Thread nD τ).loc main_arg8)
    ∧     after (opsHead (F := F)) (after opsConv2 (after opsConv1 (after opsGraph (launchContents m c)))) (Proc.devRef .tc main_arg9) = m ((c.tc : Thread nD τ).loc main_arg9) :=
  ⟨by rw [head_keep_arg0, conv2_keep_arg0, conv1_keep_arg0, graph_keep_arg0],
   by rw [head_keep_arg1, conv2_keep_arg1, conv1_keep_arg1, graph_keep_arg1],
   by rw [head_keep_arg2, conv2_keep_arg2, conv1_keep_arg2, graph_keep_arg2],
   by rw [head_keep_arg3, conv2_keep_arg3, conv1_keep_arg3, graph_keep_arg3],
   by rw [head_keep_arg4, conv2_keep_arg4, conv1_keep_arg4, graph_keep_arg4],
   by rw [head_keep_arg5, conv2_keep_arg5, conv1_keep_arg5, graph_keep_arg5],
   by rw [head_keep_arg6, conv2_keep_arg6, conv1_keep_arg6, graph_keep_arg6],
   by rw [head_keep_arg7, conv2_keep_arg7, conv1_keep_arg7, graph_keep_arg7],
   by rw [head_keep_arg8, conv2_keep_arg8, conv1_keep_arg8, graph_keep_arg8],
   by rw [head_keep_arg9, conv2_keep_arg9, conv1_keep_arg9, graph_keep_arg9]⟩

end Cert.ReferenceIdeal.RefValue

end
-- ==== Proof.RefValue.lean ====
/-
  What the reference computes: the network of Network.lean at its ten arguments.

  Read one stretch of the reference's line at a time, for any contents `W` of the buffers before the stretch: the graph
  stretch leaves the endpoints and the edge weights of Glue.lean; each convolution stretch leaves the aggregation of a dense
  layer spelt with host products; the last stretch leaves the host's logarithm of a row softmax of the last dense layer.
  Each host spelling of a layer is the layer (LibRowLayerOps.lean, LibLogSoftmaxRows.lean), and the aggregation is carried whole.
-/
import proofs.«135698_j83657372991833_2_alg».proof.Proof.RefLine
import proofs.«135698_j83657372991833_2_alg».proof.Proof.RefArgs
import proofs.«135698_j83657372991833_2_alg».proof.Proof.Network
import proofs.«135698_j83657372991833_2_alg».proof.Proof.LibLogSoftmaxRows

noncomputable section

namespace Cert.ReferenceIdeal.RefValue

open Cert.ReferenceIdeal Cert.ReferenceIdeal.Gen Cert.ReferenceIdeal.Line
open Idealize.ShloMosaic Idealize.ShloMosaic.TcCoe Idealize.SL.Sem Idealize.ShloMosaic.StableHlo
open Gcn.Layers Gcn.LayerOps Gcn.SoftmaxOps

/-! ## The host's spellings of the dense layers -/

/-- `(x · W_pre + b_pre) · W₁` with host products. -/
def dense1 (x0 : S100000x256.Idx → EReal) (x2 : S256x128.Idx → EReal) (x3 : S128.Idx → EReal) (x4 : S128x128.Idx → EReal) :
    S100000x128.Idx → EReal :=
  Host.dotGeneral (F := Ideal) (φ₁ := .f32) (φ₂ := .f32) dot_S100000x128_S128x128_S100000x128_1_0_0_1_n_n none
    (addf (F := Ideal) (φ := .f32) (Host.dotGeneral (F := Ideal) (φ₁ := .f32) (φ₂ := .f32) dot_S100000x256_S256x128_S100000x128_1_0_0_1_n_n none x0 x2)
      (broadcastInDim S100000x128 ![0, 1] bcast_S1x128_S100000x128_0_1 (broadcastInDim S1x128 ![1] bcast_S128_S1x128_1 x3))) x4

theorem dense1_eq (x0 : S100000x256.Idx → EReal) (x2 : S256x128.Idx → EReal) (x3 : S128.Idx → EReal)
    (x4 : S128x128.Idx → EReal) : dense1 x0 x2 x3 x4 = affineLinear x0 x2 (row x3) x4 :=
  host_affineLinear _ rfl _ rfl _ _ x0 x2 x3 x4

/-- `max (y + b) 0 · W` with a host product. -/
def dense2 (y : S100000x128.Idx → EReal) (x5 : S128.Idx → EReal) (x6 : S128x128.Idx → EReal) : S100000x128.Idx → EReal :=
  Host.dotGeneral (F := Ideal) (φ₁ := .f32) (φ₂ := .f32) dot_S100000x128_S128x128_S100000x128_1_0_0_1_n_n none
    (maximumf (F := Ideal) (φ := .f32)
      (addf (F := Ideal) (φ := .f32) y (broadcastInDim S100000x128 ![0, 1] bcast_S1x128_S100000x128_0_1 (broadcastInDim S1x128 ![1] bcast_S128_S1x128_1 x5)))
      (broadcastInDim S100000x128 ![] bcast_S_S100000x128 (constant (F := Ideal) S_ .f32 0x00000000#32))) x6

theorem dense2_eq (y : S100000x128.Idx → EReal) (x5 : S128.Idx → EReal) (x6 : S128x128.Idx → EReal) :
    dense2 y x5 x6 = reluLinear y (row x5) x6 :=
  host_reluLinear _ rfl _ _ _ y x5 x6

/-- `max (y + b) 0 · W + c` with a host product. -/
def dense3 (y : S100000x128.Idx → EReal) (x7 : S128.Idx → EReal) (x8 : S128x40.Idx → EReal) (x9 : S40.Idx → EReal) :
    S100000x40.Idx → EReal :=
  addf (F := Ideal) (φ := .f32)
    (Host.dotGeneral (F := Ideal) (φ₁ := .f32) (φ₂ := .f32) dot_S100000x128_S128x40_S100000x40_1_0_0_1_n_n none
      (maximumf (F := Ideal) (φ := .f32)
        (addf (F := Ideal) (φ := .f32) y (broadcastInDim S100000x128 ![0, 1] bcast_S1x128_S100000x128_0_1 (broadcastInDim S1x128 ![1] bcast_S128_S1x128_1 x7)))
        (broadcastInDim S100000x128 ![] bcast_S_S100000x128 (constant (F := Ideal) S_ .f32 0x00000000#32))) x8)
    (broadcastInDim S100000x40 ![0, 1] bcast_S1x40_S100000x40_0_1 (broadcastInDim S1x40 ![1] bcast_S40_S1x40_1 x9))

theorem dense3_eq (y : S100000x128.Idx → EReal) (x7 : S128.Idx → EReal) (x8 : S128x40.Idx → EReal) (x9 : S40.Idx → EReal) :
    dense3 y x7 x8 x9 = reluAffine y (row x7) x8 (row x9) :=
  host_reluAffine _ rfl _ _ _ _ _ y x7 x8 x9

/-- The host's maximum along each row, from −∞. -/
def rowMaxHost (z : (⟨S100000x40, .f32⟩ : BufTy).Contents (Elt Ideal)) : (⟨S100000, .f32⟩ : BufTy).Contents (Elt Ideal) :=
  Host.reduce (FloatOps.maximumf (F := Ideal) (φ := .f32)) z (constant (F := Ideal) S_ .f32 0xFF800000#32) reducesTo_S100000x40_S100000_d1 h_S_

/-- The host's row maxima of equal arrays from equal initial values are equal. -/
theorem rowMaxHost_congr (X : (⟨S100000x40, .f32⟩ : BufTy).Contents (Elt Ideal)) (I : (⟨S_, .f32⟩ : BufTy).Contents (Elt Ideal))
    (z : (⟨S100000x40, .f32⟩ : BufTy).Contents (Elt Ideal)) (hX : X = z) (hI : I = constant (F := Ideal) S_ .f32 0xFF800000#32) :
    Host.reduce (FloatOps.maximumf (F := Ideal) (φ := .f32)) X I reducesTo_S100000x40_S100000_d1 h_S_ = rowMaxHost z := by
  subst hX hI; rfl

/-- The host's logarithm of a row softmax. -/
def logSoftmaxHost (z : S100000x40.Idx → EReal) : S100000x40.Idx → EReal :=
  subf (F := Ideal) (φ := .f32)
    (subf (F := Ideal) (φ := .f32) z (broadcastInDim S100000x40 ![0, 1] bcast_S100000x1_S100000x40_0_1 (broadcastInDim S100000x1 ![0] bcast_S100000_S100000x1_0
      (maximumf (F := Ideal) (φ := .f32) (broadcastInDim S100000 ![] bcast_S_S100000 (constant (F := Ideal) S_ .f32 0xFF800000#32))
        (rowMaxHost z)))))
    (broadcastInDim S100000x40 ![0, 1] bcast_S100000x1_S100000x40_0_1 (Host.log (F := Ideal) (φ := .f32) (broadcastInDim S100000x1 ![0] bcast_S100000_S100000x1_0
      (Host.reduceAdd (F := Ideal) (φ := .f32) (Host.exp (F := Ideal) (φ := .f32)
        (subf (F := Ideal) (φ := .f32) z (broadcastInDim S100000x40 ![0, 1] bcast_S100000x1_S100000x40_0_1 (broadcastInDim S100000x1 ![0] bcast_S100000_S100000x1_0
          (maximumf (F := Ideal) (φ := .f32) (broadcastInDim S100000 ![] bcast_S_S100000 (constant (F := Ideal) S_ .f32 0xFF800000#32))
            (rowMaxHost z))))))
        (constant (F := Ideal) S_ .f32 0x00000000#32) reducesTo_S100000x40_S100000_d1 h_S_))))

theorem logSoftmaxHost_eq (z : S100000x40.Idx → EReal) : logSoftmaxHost z = logSoftmaxRows z := by
  unfold logSoftmaxHost rowMaxHost
  exact host_logSoftmaxRows _ (by decide) _ _ _ _ z

/-! ## The graph stretch and the last stretch, cut further

  The graph stretch in three parts: the endpoints, the degrees and their comparison with zero; the choice between the inverse
  square root and zero; the product of the two endpoint factors. The last stretch in six: the dense layer; the row maxima from −∞; their
  maximum with a splat of −∞; the differences; the row sums of their exponentials; the final subtraction. -/

section Cuts

variable {F : FTy → Type} [FloatOps F]

abbrev graphA : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

abbrev graphB : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

abbrev graphC : List (HloOp τ sig (Elt F)) :=
  [ nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]

abbrev headA : List (HloOp τ sig (Elt F)) :=
  [ unary main_arg7 main_v66 (broadcastInDim S1x128 ![1] bcast_S128_S1x128_1 : (⟨S128, .f32⟩ : BufTy).Contents (Elt F) → (⟨S1x128, .f32⟩ : BufTy).Contents (Elt F)),
    unary main_v66 main_v67 (broadcastInDim S100000x128 ![0, 1] bcast_S1x128_S100000x128_0_1 : (⟨S1x128, .f32⟩ : BufTy).Contents (Elt F) → (⟨S100000x128, .f32⟩ : BufTy).Contents (Elt F)),
    binary main_v65 main_v67 main_v68 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v68) (TRef.of (T := ⟨S100000x128, .f32⟩) main_call2_v0) (TRef.of (T := ⟨S100000x128, .f32⟩) main_v69) maximumf,
    binary main_v69 main_arg8 main_v70 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    unary main_arg9 main_v71 (broadcastInDim S1x40 ![1] bcast_S40_S1x40_1 : (⟨S40, .f32⟩ : BufTy).Contents (Elt F) → (⟨S1x40, .f32⟩ : BufTy).Contents (Elt F)),
    unary main_v71 main_v72 (broadcastInDim S100000x40 ![0, 1] bcast_S1x40_S100000x40_0_1 : (⟨S1x40, .f32⟩ : BufTy).Contents (Elt F) → (⟨S100000x40, .f32⟩ : BufTy).Contents (Elt F)),
    binary main_v70 main_v72 main_v73 (addf : (⟨S100000x40, .f32⟩ : BufTy).Contents (Elt F) → (⟨S100000x40, .f32⟩ : BufTy).Contents (Elt F) → (⟨S100000x40, .f32⟩ : BufTy).Contents (Elt F)) ]

/-- The row maxima, from −∞. -/
abbrev smA1 : List (HloOp τ sig (Elt F)) :=
  [ TRef.nullary (TRef.of (T := ⟨S_, .f32⟩) main_call3_cst) (constant S_ .f32 0xFF800000#32),
    TRef.binary (TRef.of (T := ⟨S100000x40, .f32⟩) main_v73) (TRef.of (T := ⟨S_, .f32⟩) main_call3_cst) (TRef.of (T := ⟨S100000, .f32⟩) main_call3_v0) (fun x v => Host.reduce FloatOps.maximumf x v reducesTo_S100000x40_S100000_d1 h_S_) ]

/-- The row maxima once more against a splat of −∞. -/
abbrev smA2 : List (HloOp τ sig (Elt F)) :=
  [ TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf ]

/-- The logits less their row maximum. -/
abbrev smB : List (HloOp τ sig (Elt F)) :=
  [ TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v73) (TRef.of (T := ⟨S100000x40, .f32⟩) main_call3_v4) (TRef.of (T := ⟨S100000x40, .f32⟩) main_call3_v5) subf ]

/-- The row sums of the exponentials. -/
abbrev smC : List (HloOp τ sig (Elt F)) :=
  [ TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_) ]

/-- The differences less the logarithm of their row's sum. -/
abbrev smD : List (HloOp τ sig (Elt F)) :=
  [ TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v74) subf ]

theorem opsGraph_split : (opsGraph (F := F)) = graphA ++ (graphB ++ graphC) := rfl

theorem opsHead_split : (opsHead (F := F)) = headA ++ (smA1 ++ (smA2 ++ (smB ++ (smC ++ smD)))) := rfl

theorem after_graph (W : Valuation τ sig (Elt F)) :
    after (opsGraph (F := F)) W = after graphC (after graphB (after graphA W)) := by
  rw [opsGraph_split, Line.after_append, Line.after_append]

theorem after_head (W : Valuation τ sig (Elt F)) :
    after (opsHead (F := F)) W = after smD (after smC (after smB (after smA2 (after smA1 (after headA W))))) := by
  rw [opsHead_split, Line.after_append, Line.after_append, Line.after_append, Line.after_append, Line.after_append]

end Cuts

/-! ## The stretches, from any contents `W` -/

section Stretches

variable (W : Valuation τ sig (Elt Ideal))

/-! The graph stretch in three parts: the endpoints, the degrees and their comparison with zero; the choice between the
    inverse square root and zero; the product of the two endpoint factors. -/

theorem first_src : after (graphA (F := Ideal)) W (Proc.devRef .tc main_v3) = Cert.KernelIdeal.Glue.srcNodes (W (Proc.devRef .tc main_arg1)) := by
  dsimp only [graphA]
  after_results_simp <;> rfl

theorem first_dst : after (graphA (F := Ideal)) W (Proc.devRef .tc main_v6) = Cert.KernelIdeal.Glue.dstNodes (W (Proc.devRef .tc main_arg1)) := by
  dsimp only [graphA]
  after_results_simp <;> rfl

theorem first_positive : after (graphA (F := Ideal)) W (Proc.devRef .tc main_v12)
    = cmpf (F := Ideal) .ogt (Cert.KernelIdeal.Glue.degree (Cert.KernelIdeal.Glue.dstNodes (W (Proc.devRef .tc main_arg1))))
        (broadcastInDim S100000 ![] bcast_S_S100000 (constant (F := Ideal) S_ .f32 0x00000000#32)) := by
  dsimp only [graphA]
  after_results_simp <;> rfl

theorem first_rsqrt : after (graphA (F := Ideal)) W (Proc.devRef .tc main_v13) = Host.rsqrt (F := Ideal) (Cert.KernelIdeal.Glue.degree (Cert.KernelIdeal.Glue.dstNodes (W (Proc.devRef .tc main_arg1)))) := by
  dsimp only [graphA]
  after_results_simp <;> rfl

theorem first_zero : after (graphA (F := Ideal)) W (Proc.devRef .tc main_cst_2) = constant (F := Ideal) S_ .f32 0x00000000#32 := by
  dsimp only [graphA]
  after_results_simp <;> rfl

theorem where_out : after (graphB (F := Ideal)) W (Proc.devRef .tc main_v14)
    = select (W (Proc.devRef .tc main_v12)) (W (Proc.devRef .tc main_v13) : S100000.Idx → EReal)
        (broadcastInDim S100000 ![] bcast_S_S100000 (id (W (Proc.devRef .tc main_cst_2) : S_.Idx → EReal))) := by
  dsimp only [graphB]
  after_results_simp <;> rfl

theorem where_keep_v3 : after (graphB (F := Ideal)) W (Proc.devRef .tc main_v3) = W (Proc.devRef .tc main_v3) := by
  dsimp only [graphB]
  after_results_simp

theorem where_keep_v6 : after (graphB (F := Ideal)) W (Proc.devRef .tc main_v6) = W (Proc.devRef .tc main_v6) := by
  dsimp only [graphB]
  after_results_simp

theorem weights_out : after (graphC (F := Ideal)) W (Proc.devRef .tc main_v29)
    = Cert.KernelIdeal.Glue.edgeNormWith (W (Proc.devRef .tc main_v14)) (W (Proc.devRef .tc main_v3)) (W (Proc.devRef .tc main_v6)) := by
  dsimp only [graphC]
  after_results_simp <;> rfl

theorem weights_keep_v3 : after (graphC (F := Ideal)) W (Proc.devRef .tc main_v3) = W (Proc.devRef .tc main_v3) := by
  dsimp only [graphC]
  after_results_simp

theorem weights_keep_v6 : after (graphC (F := Ideal)) W (Proc.devRef .tc main_v6) = W (Proc.devRef .tc main_v6) := by
  dsimp only [graphC]
  after_results_simp

theorem graph_src : after (opsGraph (F := Ideal)) W (Proc.devRef .tc main_v3) = Cert.KernelIdeal.Glue.srcNodes (W (Proc.devRef .tc main_arg1)) := by
  rw [after_graph, weights_keep_v3, where_keep_v3, first_src]

theorem graph_dst : after (opsGraph (F := Ideal)) W (Proc.devRef .tc main_v6) = Cert.KernelIdeal.Glue.dstNodes (W (Proc.devRef .tc main_arg1)) := by
  rw [after_graph, weights_keep_v6, where_keep_v6, first_dst]

theorem graph_norm : after (opsGraph (F := Ideal)) W (Proc.devRef .tc main_v29)
    = Cert.KernelIdeal.Glue.edgeNorm (Cert.KernelIdeal.Glue.srcNodes (W (Proc.devRef .tc main_arg1))) (Cert.KernelIdeal.Glue.dstNodes (W (Proc.devRef .tc main_arg1))) := by
  rw [after_graph, weights_out, where_out, where_keep_v3, where_keep_v6, first_positive, first_rsqrt, first_zero, first_src, first_dst]
  rfl

set_option maxHeartbeats 4000000 in
theorem conv1_out : after (opsConv1 (F := Ideal)) W (Proc.devRef .tc main_v47)
    = Cert.KernelIdeal.Glue.aggregateWith (W (Proc.devRef .tc main_v3)) (W (Proc.devRef .tc main_v6)) (W (Proc.devRef .tc main_v29))
        (dense1 (W (Proc.devRef .tc main_arg0)) (W (Proc.devRef .tc main_arg2)) (W (Proc.devRef .tc main_arg3)) (W (Proc.devRef .tc main_arg4))) := by
  dsimp only [opsConv1]
  after_results_simp <;> rfl

theorem conv1_keep_v3 : after (opsConv1 (F := Ideal)) W (Proc.devRef .tc main_v3) = W (Proc.devRef .tc main_v3) := by
  dsimp only [opsConv1]
  after_results_simp
theorem conv1_keep_v6 : after (opsConv1 (F := Ideal)) W (Proc.devRef .tc main_v6) = W (Proc.devRef .tc main_v6) := by
  dsimp only [opsConv1]
  after_results_simp
theorem conv1_keep_v29 : after (opsConv1 (F := Ideal)) W (Proc.devRef .tc main_v29) = W (Proc.devRef .tc main_v29) := by
  dsimp only [opsConv1]
  after_results_simp

set_option maxHeartbeats 4000000 in
theorem conv2_out : after (opsConv2 (F := Ideal)) W (Proc.devRef .tc main_v65)
    = Cert.KernelIdeal.Glue.aggregateWith (W (Proc.devRef .tc main_v3)) (W (Proc.devRef .tc main_v6)) (W (Proc.devRef .tc main_v29))
        (dense2 (W (Proc.devRef .tc main_v47)) (W (Proc.devRef .tc main_arg5)) (W (Proc.devRef .tc main_arg6))) := by
  dsimp only [opsConv2]
  after_results_simp <;> rfl

theorem head_dense : after (headA (F := Ideal)) W (Proc.devRef .tc main_v73)
    = dense3 (W (Proc.devRef .tc main_v65)) (W (Proc.devRef .tc main_arg7)) (W (Proc.devRef .tc main_arg8)) (W (Proc.devRef .tc main_arg9)) := by
  dsimp only [headA]
  after_results_simp <;> rfl

theorem sm_reduce : after (smA1 (F := Ideal)) W (Proc.devRef .tc main_call3_v0) = rowMaxHost (W (Proc.devRef .tc main_v73)) := by
  dsimp only [smA1]
  after_results_simp
  exact eq_of_heq ((cast_heq _ _).trans (heq_of_eq (rowMaxHost_congr _ _ _ (eq_of_heq (cast_heq _ _))
    (eq_of_heq ((cast_heq _ _).trans (cast_heq _ _))))))

theorem sm_reduce_keep : after (smA1 (F := Ideal)) W (Proc.devRef .tc main_v73) = W (Proc.devRef .tc main_v73) := by
  dsimp only [smA1]
  after_results_simp

theorem sm_max : after (smA2 (F := Ideal)) W (Proc.devRef .tc main_call3_v2)
    = maximumf (F := Ideal) (φ := .f32) (broadcastInDim S100000 ![] bcast_S_S100000 (constant (F := Ideal) S_ .f32 0xFF800000#32))
        (W (Proc.devRef .tc main_call3_v0) : S100000.Idx → EReal) := by
  dsimp only [smA2]
  after_results_simp <;> rfl

theorem sm_max_keep : after (smA2 (F := Ideal)) W (Proc.devRef .tc main_v73) = W (Proc.devRef .tc main_v73) := by
  dsimp only [smA2]
  after_results_simp

theorem sm_shift : after (smB (F := Ideal)) W (Proc.devRef .tc main_call3_v5)
    = subf (F := Ideal) (φ := .f32) (W (Proc.devRef .tc main_v73) : S100000x40.Idx → EReal)
        (broadcastInDim S100000x40 ![0, 1] bcast_S100000x1_S100000x40_0_1 (broadcastInDim S100000x1 ![0] bcast_S100000_S100000x1_0
          (W (Proc.devRef .tc main_call3_v2) : S100000.Idx → EReal))) := by
  dsimp only [smB]
  after_results_simp <;> rfl

theorem sm_sum : after (smC (F := Ideal)) W (Proc.devRef .tc main_call3_v7)
    = Host.reduceAdd (F := Ideal) (φ := .f32) (Host.exp (F := Ideal) (φ := .f32) (W (Proc.devRef .tc main_call3_v5) : S100000x40.Idx → EReal))
        (constant (F := Ideal) S_ .f32 0x00000000#32) reducesTo_S100000x40_S100000_d1 h_S_ := by
  dsimp only [smC]
  after_results_simp <;> rfl

theorem sm_sum_keep : after (smC (F := Ideal)) W (Proc.devRef .tc main_call3_v5) = W (Proc.devRef .tc main_call3_v5) := by
  dsimp only [smC]
  after_results_simp

theorem sm_final : after (smD (F := Ideal)) W (Proc.devRef .tc main_v74)
    = subf (F := Ideal) (φ := .f32) (W (Proc.devRef .tc main_call3_v5) : S100000x40.Idx → EReal)
        (broadcastInDim S100000x40 ![0, 1] bcast_S100000x1_S100000x40_0_1 (Host.log (F := Ideal) (φ := .f32)
          (broadcastInDim S100000x1 ![0] bcast_S100000_S100000x1_0 (W (Proc.devRef .tc main_call3_v7) : S100000.Idx → EReal)))) := by
  dsimp only [smD]
  after_results_simp <;> rfl

theorem head_out : after (opsHead (F := Ideal)) W (Proc.devRef .tc main_v74)
    = logSoftmaxHost (dense3 (W (Proc.devRef .tc main_v65)) (W (Proc.devRef .tc main_arg7)) (W (Proc.devRef .tc main_arg8)) (W (Proc.devRef .tc main_arg9))) := by
  rw [after_head, sm_final, sm_sum, sm_sum_keep, sm_shift, sm_max, sm_max_keep, sm_reduce, sm_reduce_keep, head_dense]
  rfl

end Stretches

/-! ## The whole line -/

/-- After the reference's line the result buffer holds the network of its ten arguments. -/
theorem value (m : (ℓ : Loc nD τ sig) → Buf (Elt Ideal) ℓ) (c : Dev nD) :
    after (opsHead (F := Ideal)) (after opsConv2 (after opsConv1 (after opsGraph (launchContents m c)))) (Proc.devRef .tc main_v74)
      = Cert.KernelIdeal.Glue.network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  rw [head_out, conv2_out, conv2_keep_arg7, conv2_keep_arg8, conv2_keep_arg9,
    conv1_out, conv1_keep_v3, conv1_keep_v6, conv1_keep_v29, conv1_keep_arg5, conv1_keep_arg6, conv1_keep_arg7,
    conv1_keep_arg8, conv1_keep_arg9,
    graph_src, graph_dst, graph_norm, graph_keep_arg0, graph_keep_arg2, graph_keep_arg3, graph_keep_arg4,
    graph_keep_arg5, graph_keep_arg6, graph_keep_arg7, graph_keep_arg8, graph_keep_arg9,
    logSoftmaxHost_eq, dense3_eq, dense2_eq, dense1_eq]
  rfl

end Cert.ReferenceIdeal.RefValue

end
-- ==== Proof.lean ====
/-
  A two-convolution graph network on 100000 nodes and 1600000 edges, as three row-tiled TPU calls with host code between
  them, against its plain jnp reference — equal results over the extended reals.

  Both programs compute, in the same order,
      H₁ = (x · W_pre + b_pre) · W₁,   H₂ = max (Â H₁ + b₁) 0 · W₂,   Z = max (Â H₂ + b₂) 0 · W_post + b_post,
  and return the logarithm of the row softmax of Z, where Â gathers a row per edge, scales it by the edge's weight and adds
  it into the edge's target row. The kernel program tiles each dense layer over 25 blocks of 4000 rows and rounds to a
  narrower float format on the way into every product; over the extended reals the rounding is the identity, a product
  into the zero accumulator is the plain sum of products, an entry of a dense layer or of a row softmax reads one row, and
  the 25 blocks written cover the result. The aggregation Â is the same host code in both programs and is carried as one
  function. No step moves a factor across a sum or cancels, so the inputs' finiteness is never used.

  The three frame claims: the two kernel programs by their generated frames, the reference by its run (a straight line of
  host operations, none writing an argument). The idealization rewrote nothing, so `preserves` is trivial.
-/
import proofs.«135698_j83657372991833_2_alg».proof.Defs
import proofs.«135698_j83657372991833_2_alg».proof.Proof.Gen.Kernel
import proofs.«135698_j83657372991833_2_alg».proof.Proof.Gen.Kernel.Skeleton
import proofs.«135698_j83657372991833_2_alg».proof.Proof.Gen.Kernel.Launch
import proofs.«135698_j83657372991833_2_alg».proof.Proof.Gen.Kernel.Points
import proofs.«135698_j83657372991833_2_alg».proof.Proof.Gen.Kernel.Frame
import proofs.«135698_j83657372991833_2_alg».proof.Proof.Gen.KernelIdeal
import proofs.«135698_j83657372991833_2_alg».proof.Proof.Gen.KernelIdeal.Skeleton
import proofs.«135698_j83657372991833_2_alg».proof.Proof.Gen.KernelIdeal.Launch
import proofs.«135698_j83657372991833_2_alg».proof.Proof.Gen.KernelIdeal.Points
import proofs.«135698_j83657372991833_2_alg».proof.Proof.Gen.KernelIdeal.Frame
import proofs.«135698_j83657372991833_2_alg».proof.Proof.Gen.ReferenceIdeal
import proofs.«135698_j83657372991833_2_alg».proof.Proof.Gen.Pre_finite_inputs
import proofs.«135698_j83657372991833_2_alg».proof.Proof.Walk
import proofs.«135698_j83657372991833_2_alg».proof.Proof.RefValue
import Idealize.ShloMosaic.Adequacy
import Idealize.ShloMosaic.Init

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

/-- The reference runs and leaves its arguments as launched. -/
theorem frame_reference : @Cert.frame_ReferenceIdeal Cert.ReferenceIdeal.Gen.facts Cert.Pre_finite_inputs.Gen.facts :=
  fun m ρ _ => (θ_run Cert.ReferenceIdeal.defs _ _).mono (fun r h c => by
      obtain ⟨k0, k1, k2, k3, k4, k5, k6, k7, k8, k9⟩ := Cert.ReferenceIdeal.RefValue.line_keeps m c
      exact ⟨(h c _).trans k0, (h c _).trans k1, (h c _).trans k2, (h c _).trans k3, (h c _).trans k4,
        (h c _).trans k5, (h c _).trans k6, (h c _).trans k7, (h c _).trans k8, (h c _).trans k9⟩)
    (Cert.ReferenceIdeal.Line.run (F := Ideal) m ρ)

/-- Both idealized programs end with the network of Network.lean at the arguments in their result arrays; the arguments
    agree, so the results do. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Glue.network
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    ?_, ?_⟩
  · exact (θ_run Cert.KernelIdeal.defs _ _).mono (fun r h c => ⟨(h c).1.trans (Cert.KernelIdeal.Walk.value m ρ c), (h c).2⟩)
      (Cert.KernelIdeal.RunAll.run_named (F := Ideal) m ρ)
  · refine (θ_run Cert.ReferenceIdeal.defs _ _).mono (fun r h c => ?_) (Cert.ReferenceIdeal.Line.run (F := Ideal) m' ρ')
    obtain ⟨k0, k1, k2, k3, k4, k5, k6, k7, k8, k9⟩ := Cert.ReferenceIdeal.RefValue.line_keeps m' c
    obtain ⟨a0, a1, a2, a3, a4, a5, a6, a7, a8, a9⟩ := hagree c
    refine ⟨((h c _).trans (Cert.ReferenceIdeal.RefValue.value m' c)).trans ?_, (h c _).trans k0, (h c _).trans k1, (h c _).trans k2,
      (h c _).trans k3, (h c _).trans k4, (h c _).trans k5, (h c _).trans k6, (h c _).trans k7, (h c _).trans k8,
      (h c _).trans k9⟩
    rw [a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
